-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384 : Shape := ⟨1, ![16384]⟩
abbrev S1000x1280 : Shape := ⟨2, ![1000, 1280]⟩
abbrev S16384x1280 : Shape := ⟨2, ![16384, 1280]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x1280 : S_.BroadcastsInDim S1000x1280 (![] : Fin 0 → Fin S1000x1280.rank)
  reducesTo_S1000x1280_S_d0_1 : S1000x1280.ReducesTo [0, 1] S_
  bcast_S_S16384x1280 : S_.BroadcastsInDim S16384x1280 (![] : Fin 0 → Fin S16384x1280.rank)
  reducesTo_S16384x1280_S_d0_1 : S16384x1280.ReducesTo [0, 1] S_

variable [Facts]

def fn {F : FTy → Type} [FloatOps F] (main_arg0 : FVec F S16384x1000 .f32) (main_arg1 : IVec S16384 32) (main_arg2 : FVec F S1000x1280 .f32) (main_arg3 : FVec F S16384x1280 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x1280 .f32 := Host.absf main_arg2
  let main_cst_0 : FVec F S_ .f32 := constant S_ .f32 0x7F800000#32
  let main_v5 : FVec F S1000x1280 .f32 := broadcastInDim S1000x1280 ![] bcast_S_S1000x1280 main_cst_0
  let main_v6 : IVec S1000x1280 1 := cmpf .olt main_v4 main_v5
  let main_c_1 : IVec S_ 1 := constantI S_ 1 1#1
  let main_v7 : IVec S_ 1 := (fun x v => Host.reduce IntOp.andi x v reducesTo_S1000x1280_S_d0_1 h_S_) main_v6 main_c_1
  let main_v8 : IVec S_ 1 := andi main_v3 main_v7
  let main_v9 : FVec F S16384x1280 .f32 := Host.absf main_arg3
  let main_cst_2 : FVec F S_ .f32 := constant S_ .f32 0x7F800000#32
  let main_v10 : FVec F S16384x1280 .f32 := broadcastInDim S16384x1280 ![] bcast_S_S16384x1280 main_cst_2
  let main_v11 : IVec S16384x1280 1 := cmpf .olt main_v9 main_v10
  let main_c_3 : IVec S_ 1 := constantI S_ 1 1#1
  let main_v12 : IVec S_ 1 := (fun x v => Host.reduce IntOp.andi x v reducesTo_S16384x1280_S_d0_1 h_S_) main_v11 main_c_3
  let main_v13 : IVec S_ 1 := andi main_v8 main_v12
  main_v13
-- ==== Kernel.lean ====
abbrev S16384x1000 : Shape := ⟨2, ![16384, 1000]⟩
abbrev S16384 : Shape := ⟨1, ![16384]⟩
abbrev S1000x1280 : Shape := ⟨2, ![1000, 1280]⟩
abbrev S16384x1280 : Shape := ⟨2, ![16384, 1280]⟩
abbrev S2x1280x1280 : Shape := ⟨3, ![2, 1280, 1280]⟩
abbrev S2x1x1280 : Shape := ⟨3, ![2, 1, 1280]⟩
abbrev S2x1x1 : Shape := ⟨3, ![2, 1, 1]⟩
abbrev S1024x1280 : Shape := ⟨2, ![1024, 1280]⟩
abbrev S1x1280x1280 : Shape := ⟨3, ![1, 1280, 1280]⟩
abbrev S1x1x1280 : Shape := ⟨3, ![1, 1, 1280]⟩
abbrev S1x1x1 : Shape := ⟨3, ![1, 1, 1]⟩
abbrev S1280x1280 : Shape := ⟨2, ![1280, 1280]⟩
abbrev S1x1280 : Shape := ⟨2, ![1, 1280]⟩
abbrev S1x1 : Shape := ⟨2, ![1, 1]⟩
abbrev S1280 : Shape := ⟨1, ![1280]⟩
abbrev S1024 : Shape := ⟨1, ![1024]⟩
abbrev S1024x1 : Shape := ⟨2, ![1024, 1]⟩
abbrev S1x1024x1280 : Shape := ⟨3, ![1, 1024, 1280]⟩
abbrev S1 : Shape := ⟨1, ![1]⟩
abbrev S_ : Shape := ⟨0, ![]⟩
abbrev S1280x1 : Shape := ⟨2, ![1280, 1]⟩
abbrev S16384x1 : Shape := ⟨2, ![16384, 1]⟩
abbrev S16384x1x1 : Shape := ⟨3, ![16384, 1, 1]⟩
abbrev S1000x1000 : Shape := ⟨2, ![1000, 1000]⟩
abbrev S1x1000x1000 : Shape := ⟨3, ![1, 1000, 1000]⟩
abbrev S1x1000x1280 : Shape := ⟨3, ![1, 1000, 1280]⟩

abbrev nBuf : Space → Nat
  | .hbm => 87
  | .vmem => 12
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x1280, .f32⟩
  | .hbm, ⟨3, _⟩ => ⟨S16384x1280, .f32⟩
  | .hbm, ⟨4, _⟩ => ⟨S2x1280x1280, .f32⟩
  | .hbm, ⟨5, _⟩ => ⟨S2x1x1280, .f32⟩
  | .hbm, ⟨6, _⟩ => ⟨S2x1x1, .f32⟩
  | .hbm, ⟨7, _⟩ => ⟨S_, .f32⟩
  | .hbm, ⟨8, _⟩ => ⟨S1280x1280, .f32⟩
  | .hbm, ⟨9, _⟩ => ⟨S_, .f32⟩
  | .hbm, ⟨10, _⟩ => ⟨S1x1280, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1280, .f32⟩
  | .hbm, ⟨15, _⟩ => ⟨S1x1280, .f32⟩
  | .hbm, ⟨16, _⟩ => ⟨S_, .f32⟩
  | .hbm, ⟨17, _⟩ => ⟨S1280x1280, .f32⟩
  | .hbm, ⟨18, _⟩ => ⟨S1280x1280, .f32⟩
  | .hbm, ⟨19, _⟩ => ⟨S1280x1, .f32⟩
  | .hbm, ⟨20, _⟩ => ⟨S1280x1280, .f32⟩
  | .hbm, ⟨21, _⟩ => ⟨S1280x1280, .f32⟩
  | .hbm, ⟨22, _⟩ => ⟨S1280x1280, .i32⟩
  | .hbm, ⟨23, _⟩ => ⟨S1280x1280, .i32⟩
  | .hbm, ⟨24, _⟩ => ⟨S_, .i32⟩
  | .hbm, ⟨25, _⟩ => ⟨S1280x1280, .i32⟩
  | .hbm, ⟨26, _⟩ => ⟨S1280x1280, .i32⟩
  | .hbm, ⟨27, _⟩ => ⟨S1280x1280, .i1⟩
  | .hbm, ⟨28, _⟩ => ⟨S1280x1280, .f32⟩
  | .hbm, ⟨29, _⟩ => ⟨S1280x1280, .f32⟩
  | .hbm, ⟨30, _⟩ => ⟨S1280x1280, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16384x1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S_, .i32⟩
  | .hbm, ⟨40, _⟩ => ⟨S16384x1, .i32⟩
  | .hbm, ⟨41, _⟩ => ⟨S16384x1, .i32⟩
  | .hbm, ⟨42, _⟩ => ⟨S16384x1, .i32⟩
  | .hbm, ⟨43, _⟩ => ⟨S16384x1x1, .i32⟩
  | .hbm, ⟨44, _⟩ => ⟨S1, .i32⟩
  | .hbm, ⟨45, _⟩ => ⟨S_, .i32⟩
  | .hbm, ⟨46, _⟩ => ⟨S16384x1x1, .i32⟩
  | .hbm, ⟨47, _⟩ => ⟨S16384x1x1, .i1⟩
  | .hbm, ⟨48, _⟩ => ⟨S1x1x1, .i32⟩
  | .hbm, ⟨49, _⟩ => ⟨S16384x1x1, .i32⟩
  | .hbm, ⟨50, _⟩ => ⟨S16384x1x1, .i1⟩
  | .hbm, ⟨51, _⟩ => ⟨S16384x1x1, .i1⟩
  | .hbm, ⟨52, _⟩ => ⟨S_, .i1⟩
  | .hbm, ⟨53, _⟩ => ⟨S16384x1, .i1⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S1x1, .f32⟩
  | .hbm, ⟨65, _⟩ => ⟨S1x1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S1024x1280, .f32⟩
  | .local _ .vmem, ⟨1, _⟩ => ⟨S1024x1280, .f32⟩
  | .local _ .vmem, ⟨2, _⟩ => ⟨S1x1280x1280, .f32⟩
  | .local _ .vmem, ⟨3, _⟩ => ⟨S1x1280x1280, .f32⟩
  | .local _ .vmem, ⟨4, _⟩ => ⟨S1x1x1280, .f32⟩
  | .local _ .vmem, ⟨5, _⟩ => ⟨S1x1x1280, .f32⟩
  | .local _ .vmem, ⟨6, _⟩ => ⟨S1x1x1, .f32⟩
  | .local _ .vmem, ⟨7, _⟩ => ⟨S1x1x1, .f32⟩
  | .local _ .vmem, ⟨8, _⟩ => ⟨S1000x1280, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_cst : Ref sig .tc := ⟨.hbm, 55, rfl⟩
abbrev main_call0_v14 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_cst_7 : Ref sig .tc := ⟨.hbm, 60, rfl⟩
abbrev main_v24 : Ref sig .tc := ⟨.hbm, 61, rfl⟩
abbrev main_v25 : Ref sig .tc := ⟨.hbm, 62, rfl⟩
abbrev main_v26_0 : Ref sig .tc := ⟨.hbm, 63, rfl⟩
abbrev main_v26_1 : Ref sig .tc := ⟨.hbm, 64, rfl⟩
abbrev main_v26_2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_8 : Ref sig .tc := ⟨.hbm, 70, rfl⟩
abbrev main_v31 : Ref sig .tc := ⟨.hbm, 71, rfl⟩
abbrev main_cst_9 : Ref sig .tc := ⟨.hbm, 72, rfl⟩
abbrev main_v32 : Ref sig .tc := ⟨.hbm, 73, rfl⟩
abbrev main_v33 : Ref sig .tc := ⟨.hbm, 74, rfl⟩
abbrev main_cst_10 : Ref sig .tc := ⟨.hbm, 75, rfl⟩
abbrev main_v34 : Ref sig .tc := ⟨.hbm, 76, rfl⟩
abbrev main_v35 : Ref sig .tc := ⟨.hbm, 77, rfl⟩
abbrev main_cst_11 : Ref sig .tc := ⟨.hbm, 78, rfl⟩
abbrev main_v36 : Ref sig .tc := ⟨.hbm, 79, rfl⟩
abbrev main_v37 : Ref sig .tc := ⟨.hbm, 80, rfl⟩
abbrev main_cst_12 : Ref sig .tc := ⟨.hbm, 81, rfl⟩
abbrev main_v38 : Ref sig .tc := ⟨.hbm, 82, rfl⟩
abbrev main_v39 : Ref sig .tc := ⟨.hbm, 83, rfl⟩
abbrev main_cst_13 : Ref sig .tc := ⟨.hbm, 84, rfl⟩
abbrev main_v40 : Ref sig .tc := ⟨.hbm, 85, rfl⟩
abbrev main_v41 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1000x1280 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x1280x1280_S1x1280x1280_0_0_0 : ∀ a, (![0, 0, 0] : Fin 3 → Nat) a + S1x1280x1280.size a ≤ S1x1280x1280.size a
  h_S1x1280x1280 : 0 < S1x1280x1280.numel
  shapeCasts_S1x1280x1280_S1280x1280 : S1x1280x1280.ShapeCasts S1280x1280
  shapeCasts_S1280x1280_S1x1280x1280 : S1280x1280.ShapeCasts S1x1280x1280
  inb_S1x1x1280_S1x1x1280_0_0_0 : ∀ a, (![0, 0, 0] : Fin 3 → Nat) a + S1x1x1280.size a ≤ S1x1x1280.size a
  h_S1x1x1280 : 0 < S1x1x1280.numel
  shapeCasts_S1x1x1280_S1x1280 : S1x1x1280.ShapeCasts S1x1280
  shapeCasts_S1x1280_S1x1x1280 : S1x1280.ShapeCasts S1x1x1280
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1024x1280_S1024x1280_0_0 : ∀ a, (![0, 0] : Fin 2 → Nat) a + S1024x1280.size a ≤ S1024x1280.size a
  h_S1024x1280 : 0 < S1024x1280.numel
  bitsLt_bf16_f32 : FTy.bits .bf16 < FTy.bits .f32
  reduces_S1024x1280_S1280 : S1024x1280.Reduces [0] S1280
  shapeCasts_S1280_S1x1280 : S1280.ShapeCasts S1x1280
  reduces_S1024x1280_S1024 : S1024x1280.Reduces [1] S1024
  shapeCasts_S1024_S1024x1 : S1024.ShapeCasts S1024x1
  broadcasts_S1024x1_S1024x1280 : S1024x1.Broadcasts S1024x1280
  shapeCasts_S1024x1280_S1x1024x1280 : S1024x1280.ShapeCasts S1x1024x1280
  reduces_S1x1024x1280_S1 : S1x1024x1280.Reduces [1, 2] S1
  shapeCasts_S1_S1x1x1 : S1.ShapeCasts S1x1x1
  inpos_S1x1x1_p0_0_0 : ∀ a, (![0, 0, 0] : Fin 3 → Nat) a < S1x1x1.size a
  reducesTo_S2x1280x1280_S1280x1280_d0 : S2x1280x1280.ReducesTo [0] S1280x1280
  h_S_ : 0 < S_.numel
  reducesTo_S2x1x1280_S1x1280_d0 : S2x1x1280.ReducesTo [0] S1x1280
  reducesTo_S2x1x1_S_d0_1_2 : S2x1x1.ReducesTo [0, 1, 2] S_
  bcast_S_S1x1280 : S_.BroadcastsInDim S1x1280 (![] : Fin 0 → Fin S1x1280.rank)
  bcast_S_S1280x1280 : S_.BroadcastsInDim S1280x1280 (![] : Fin 0 → Fin S1280x1280.rank)
  transposes_S1x1280_S1280x1_1_0 : S1x1280.Transposes [1, 0] S1280x1
  reducesTo_S1280x1280_S_d0_1 : S1280x1280.ReducesTo [0, 1] S_
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  inb_S1000x1280_S1000x1280_0_0 : ∀ a, (![0, 0] : Fin 2 → Nat) a + S1000x1280.size a ≤ S1000x1280.size a
  h_S1000x1280 : 0 < S1000x1280.numel
  iota_S1000x1000_d0_w32 : S1000x1000.Iotas .tc 32 [0]
  iota_S1000x1000_d1_w32 : S1000x1000.Iotas .tc 32 [1]
  shapeCasts_S1000x1000_S1x1000x1000 : S1000x1000.ShapeCasts S1x1000x1000
  reduces_S1x1000x1000_S1 : S1x1000x1000.Reduces [1, 2] S1
  inb_S1x1_S1x1_0_0 : ∀ a, (![0, 0] : Fin 2 → Nat) a + S1x1.size a ≤ S1x1.size a
  h_S1x1 : 0 < S1x1.numel
  shapeCasts_S1000x1280_S1x1000x1280 : S1000x1280.ShapeCasts S1x1000x1280
  reduces_S1x1000x1280_S1 : S1x1000x1280.Reduces [1, 2] S1
  shapeCasts_S1x1_S_ : S1x1.ShapeCasts S_
  dot_S1024x1280_S1024x1280_S1280x1280_0_0_1_1_n_n_wf : DotDims.WF S1024x1280 S1024x1280 S1280x1280 [0] [0] [1] [1] [] []
  dot_S1280x1_S1x1280_S1280x1280_1_0_0_1_n_n_wf : DotDims.WF S1280x1 S1x1280 S1280x1280 [1] [0] [0] [1] [] []
  gather_S16384x1000_S16384x1x1_S16384x1_n_1_0_0_1_2_11_wf : GatherDims.WF S16384x1000 S16384x1x1 S16384x1 [] [1] [0] [1] [0] 2 ![1, 1]
  dot_S1000x1280_S1000x1280_S1000x1000_1_1_0_0_n_n_wf : DotDims.WF S1000x1280 S1000x1280 S1000x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S16384x1280.size a
  hwx0_0 : ∀ i : grid0.Coords, EltTy.bits .f32 = 32 ∨ (Rect.block (s := S16384x1280) S1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280x1280.size a ≤ S2x1280x1280.size a
  hwx0_1 : ∀ i : grid0.Coords, EltTy.bits .f32 = 32 ∨ (Rect.block (s := S2x1280x1280) S1x1280x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1280.size a ≤ S2x1x1280.size a
  hwx0_2 : ∀ i : grid0.Coords, EltTy.bits .f32 = 32 ∨ (Rect.block (s := S2x1x1280) S1x1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1000x1280.size a ≤ S1000x1280.size a
  hwx1_0 : ∀ i : grid1.Coords, EltTy.bits .f32 = 32 ∨ (Rect.block (s := S1000x1280) S1000x1280.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S1024x1280_S1024x1280_S1280x1280_0_0_1_1_n_n : DotDims S1024x1280 S1024x1280 S1280x1280 where
  lhsContracting := [0]
  rhsContracting := [0]
  lhsNonContracting := [1]
  rhsNonContracting := [1]
  lhsBatch := []
  rhsBatch := []
  wf := dot_S1024x1280_S1024x1280_S1280x1280_0_0_1_1_n_n_wf
def dot_S1280x1_S1x1280_S1280x1280_1_0_0_1_n_n : DotDims S1280x1 S1x1280 S1280x1280 where
  lhsContracting := [1]
  rhsContracting := [0]
  lhsNonContracting := [0]
  rhsNonContracting := [1]
  lhsBatch := []
  rhsBatch := []
  wf := dot_S1280x1_S1x1280_S1280x1280_1_0_0_1_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf
def dot_S1000x1280_S1000x1280_S1000x1000_1_1_0_0_n_n : DotDims S1000x1280 S1000x1280 S1000x1000 where
  lhsContracting := [1]
  rhsContracting := [1]
  lhsNonContracting := [0]
  rhsNonContracting := [0]
  lhsBatch := []
  rhsBatch := []
  wf := dot_S1000x1280_S1000x1280_S1000x1000_1_1_0_0_n_n_wf

abbrev win0_0 : Pipeline.Window sig grid0 :=
  Pipeline.Window.ofSpec (Memref.whole main_arg3) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1280x1280.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1280.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S1000x1280.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S1x1.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26_1) S1x1.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26_2) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1000 : Shape := ⟨2, ![16384, 1000]⟩
abbrev S16384 : Shape := ⟨1, ![16384]⟩
abbrev S1000x1280 : Shape := ⟨2, ![1000, 1280]⟩
abbrev S16384x1280 : Shape := ⟨2, ![16384, 1280]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S1280 : Shape := ⟨1, ![1280]⟩
abbrev S1x1280 : Shape := ⟨2, ![1, 1280]⟩
abbrev S1280x16384 : Shape := ⟨2, ![1280, 16384]⟩
abbrev S1280x1280 : Shape := ⟨2, ![1280, 1280]⟩
abbrev S1280x1000 : Shape := ⟨2, ![1280, 1000]⟩
abbrev S1000x1000 : Shape := ⟨2, ![1000, 1000]⟩

abbrev nBuf : Space → Nat
  | .hbm => 119
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x1280, .f32⟩
  | .hbm, ⟨3, _⟩ => ⟨S16384x1280, .f32⟩
  | .hbm, ⟨4, _⟩ => ⟨S16384x1, .i32⟩
  | .hbm, ⟨5, _⟩ => ⟨S_, .i32⟩
  | .hbm, ⟨6, _⟩ => ⟨S16384x1, .i32⟩
  | .hbm, ⟨7, _⟩ => ⟨S16384x1, .i1⟩
  | .hbm, ⟨8, _⟩ => ⟨S_, .i32⟩
  | .hbm, ⟨9, _⟩ => ⟨S16384x1, .i32⟩
  | .hbm, ⟨10, _⟩ => ⟨S16384x1, .i32⟩
  | .hbm, ⟨11, _⟩ => ⟨S16384x1, .i32⟩
  | .hbm, ⟨12, _⟩ => ⟨S16384x1x1, .i32⟩
  | .hbm, ⟨13, _⟩ => ⟨S1, .i32⟩
  | .hbm, ⟨14, _⟩ => ⟨S_, .i32⟩
  | .hbm, ⟨15, _⟩ => ⟨S16384x1x1, .i32⟩
  | .hbm, ⟨16, _⟩ => ⟨S16384x1x1, .i1⟩
  | .hbm, ⟨17, _⟩ => ⟨S1x1x1, .i32⟩
  | .hbm, ⟨18, _⟩ => ⟨S16384x1x1, .i32⟩
  | .hbm, ⟨19, _⟩ => ⟨S16384x1x1, .i1⟩
  | .hbm, ⟨20, _⟩ => ⟨S16384x1x1, .i1⟩
  | .hbm, ⟨21, _⟩ => ⟨S_, .i1⟩
  | .hbm, ⟨22, _⟩ => ⟨S16384x1, .i1⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x1280, .f32⟩
  | .hbm, ⟨39, _⟩ => ⟨S16384x1280, .f32⟩
  | .hbm, ⟨40, _⟩ => ⟨S16384x1280, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1, .f32⟩
  | .hbm, ⟨45, _⟩ => ⟨S16384x1280, .f32⟩
  | .hbm, ⟨46, _⟩ => ⟨S16384x1280, .f32⟩
  | .hbm, ⟨47, _⟩ => ⟨S16384x1280, .f32⟩
  | .hbm, ⟨48, _⟩ => ⟨S16384x1280, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1280, .f32⟩
  | .hbm, ⟨60, _⟩ => ⟨S1x1280, .f32⟩
  | .hbm, ⟨61, _⟩ => ⟨S_, .f32⟩
  | .hbm, ⟨62, _⟩ => ⟨S1x1280, .f32⟩
  | .hbm, ⟨63, _⟩ => ⟨S1x1280, .f32⟩
  | .hbm, ⟨64, _⟩ => ⟨S16384x1280, .f32⟩
  | .hbm, ⟨65, _⟩ => ⟨S16384x1280, .f32⟩
  | .hbm, ⟨66, _⟩ => ⟨S1280x16384, .f32⟩
  | .hbm, ⟨67, _⟩ => ⟨S1280x1280, .f32⟩
  | .hbm, ⟨68, _⟩ => ⟨S_, .f32⟩
  | .hbm, ⟨69, _⟩ => ⟨S1280x1280, .f32⟩
  | .hbm, ⟨70, _⟩ => ⟨S1280x1280, .f32⟩
  | .hbm, ⟨71, _⟩ => ⟨S1280x1280, .i32⟩
  | .hbm, ⟨72, _⟩ => ⟨S1280x1280, .i32⟩
  | .hbm, ⟨73, _⟩ => ⟨S_, .i32⟩
  | .hbm, ⟨74, _⟩ => ⟨S1280x1280, .i32⟩
  | .hbm, ⟨75, _⟩ => ⟨S1280x1280, .i32⟩
  | .hbm, ⟨76, _⟩ => ⟨S1280x1280, .i1⟩
  | .hbm, ⟨77, _⟩ => ⟨S1280x1280, .f32⟩
  | .hbm, ⟨78, _⟩ => ⟨S1280x1280, .f32⟩
  | .hbm, ⟨79, _⟩ => ⟨S1280x1280, .f32⟩
  | .hbm, ⟨80, _⟩ => ⟨S_, .f32⟩
  | .hbm, ⟨81, _⟩ => ⟨S_, .f32⟩
  | .hbm, ⟨82, _⟩ => ⟨S1280x1000, .f32⟩
  | .hbm, ⟨83, _⟩ => ⟨S1000x1000, .f32⟩
  | .hbm, ⟨84, _⟩ => ⟨S1000x1000, .i32⟩
  | .hbm, ⟨85, _⟩ => ⟨S1000x1000, .i32⟩
  | .hbm, ⟨86, _⟩ => ⟨S_, .i32⟩
  | .hbm, ⟨87, _⟩ => ⟨S1000x1000, .i32⟩
  | .hbm, ⟨88, _⟩ => ⟨S1000x1000, .i32⟩
  | .hbm, ⟨89, _⟩ => ⟨S1000x1000, .i1⟩
  | .hbm, ⟨90, _⟩ => ⟨S1000x1000, .f32⟩
  | .hbm, ⟨91, _⟩ => ⟨S1000x1000, .f32⟩
  | .hbm, ⟨92, _⟩ => ⟨S1000x1000, .f32⟩
  | .hbm, ⟨93, _⟩ => ⟨S_, .f32⟩
  | .hbm, ⟨94, _⟩ => ⟨S_, .f32⟩
  | .hbm, ⟨95, _⟩ => ⟨S1000x1280, .f32⟩
  | .hbm, ⟨96, _⟩ => ⟨S_, .f32⟩
  | .hbm, ⟨97, _⟩ => ⟨S_, .f32⟩
  | .hbm, ⟨98, _⟩ => ⟨S1000x1280, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_call1_cst : Ref sig .tc := ⟨.hbm, 32, rfl⟩
abbrev main_call1_v0 : Ref sig .tc := ⟨.hbm, 33, rfl⟩
abbrev main_call1_cst_0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_cst_1 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst_1 : Ref sig .tc := ⟨.hbm, 49, rfl⟩
abbrev main_v8 : Ref sig .tc := ⟨.hbm, 50, rfl⟩
abbrev main_cst_2 : Ref sig .tc := ⟨.hbm, 51, rfl⟩
abbrev main_v9 : Ref sig .tc := ⟨.hbm, 52, rfl⟩
abbrev main_cst_3 : Ref sig .tc := ⟨.hbm, 53, rfl⟩
abbrev main_v10 : Ref sig .tc := ⟨.hbm, 54, rfl⟩
abbrev main_v11 : Ref sig .tc := ⟨.hbm, 55, rfl⟩
abbrev main_cst_4 : Ref sig .tc := ⟨.hbm, 56, rfl⟩
abbrev main_v12 : Ref sig .tc := ⟨.hbm, 57, rfl⟩
abbrev main_cst_5 : Ref sig .tc := ⟨.hbm, 58, rfl⟩
abbrev main_v13 : Ref sig .tc := ⟨.hbm, 59, rfl⟩
abbrev main_v14 : Ref sig .tc := ⟨.hbm, 60, rfl⟩
abbrev main_cst_6 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_cst_7 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst_8 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_c_9 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_10 : Ref sig .tc := ⟨.hbm, 93, rfl⟩
abbrev main_v42 : Ref sig .tc := ⟨.hbm, 94, rfl⟩
abbrev main_v43 : Ref sig .tc := ⟨.hbm, 95, rfl⟩
abbrev main_cst_11 : Ref sig .tc := ⟨.hbm, 96, rfl⟩
abbrev main_v44 : Ref sig .tc := ⟨.hbm, 97, rfl⟩
abbrev main_v45 : Ref sig .tc := ⟨.hbm, 98, rfl⟩
abbrev main_cst_12 : Ref sig .tc := ⟨.hbm, 99, rfl⟩
abbrev main_v46 : Ref sig .tc := ⟨.hbm, 100, rfl⟩
abbrev main_v47 : Ref sig .tc := ⟨.hbm, 101, rfl⟩
abbrev main_cst_13 : Ref sig .tc := ⟨.hbm, 102, rfl⟩
abbrev main_v48 : Ref sig .tc := ⟨.hbm, 103, rfl⟩
abbrev main_cst_14 : Ref sig .tc := ⟨.hbm, 104, rfl⟩
abbrev main_v49 : Ref sig .tc := ⟨.hbm, 105, rfl⟩
abbrev main_v50 : Ref sig .tc := ⟨.hbm, 106, rfl⟩
abbrev main_cst_15 : Ref sig .tc := ⟨.hbm, 107, rfl⟩
abbrev main_v51 : Ref sig .tc := ⟨.hbm, 108, rfl⟩
abbrev main_v52 : Ref sig .tc := ⟨.hbm, 109, rfl⟩
abbrev main_cst_16 : Ref sig .tc := ⟨.hbm, 110, rfl⟩
abbrev main_v53 : Ref sig .tc := ⟨.hbm, 111, rfl⟩
abbrev main_v54 : Ref sig .tc := ⟨.hbm, 112, rfl⟩
abbrev main_cst_17 : Ref sig .tc := ⟨.hbm, 113, rfl⟩
abbrev main_v55 : Ref sig .tc := ⟨.hbm, 114, rfl⟩
abbrev main_v56 : Ref sig .tc := ⟨.hbm, 115, rfl⟩
abbrev main_cst_18 : Ref sig .tc := ⟨.hbm, 116, rfl⟩
abbrev main_v57 : Ref sig .tc := ⟨.hbm, 117, rfl⟩
abbrev main_v58 : Ref sig .tc := ⟨.hbm, 118, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  reducesTo_S16384x1_S_d0_1 : S16384x1.ReducesTo [0, 1] S_
  reducesTo_S16384x1280_S16384_d1 : S16384x1280.ReducesTo [1] S16384
  bcast_S_S16384 : S_.BroadcastsInDim S16384 (![] : Fin 0 → Fin S16384.rank)
  bcast_S16384x1_S16384x1280_0_1 : S16384x1.BroadcastsInDim S16384x1280 (![0, 1] : Fin 2 → Fin S16384x1280.rank)
  reducesTo_S16384x1280_S_d0_1 : S16384x1280.ReducesTo [0, 1] S_
  reducesTo_S16384x1280_S1280_d0 : S16384x1280.ReducesTo [0] S1280
  bcast_S1280_S1x1280_1 : S1280.BroadcastsInDim S1x1280 (![1] : Fin 1 → Fin S1x1280.rank)
  bcast_S_S1x1280 : S_.BroadcastsInDim S1x1280 (![] : Fin 0 → Fin S1x1280.rank)
  bcast_S1x1280_S16384x1280_0_1 : S1x1280.BroadcastsInDim S16384x1280 (![0, 1] : Fin 2 → Fin S16384x1280.rank)
  transposes_S16384x1280_S1280x16384_1_0 : S16384x1280.Transposes [1, 0] S1280x16384
  bcast_S_S1280x1280 : S_.BroadcastsInDim S1280x1280 (![] : Fin 0 → Fin S1280x1280.rank)
  reducesTo_S1280x1280_S_d0_1 : S1280x1280.ReducesTo [0, 1] S_
  transposes_S1000x1280_S1280x1000_1_0 : S1000x1280.Transposes [1, 0] S1280x1000
  bcast_S_S1000x1000 : S_.BroadcastsInDim S1000x1000 (![] : Fin 0 → Fin S1000x1000.rank)
  reducesTo_S1000x1000_S_d0_1 : S1000x1000.ReducesTo [0, 1] S_
  reducesTo_S1000x1280_S_d0_1 : S1000x1280.ReducesTo [0, 1] S_
  gather_S16384x1000_S16384x1x1_S16384x1_n_1_0_0_1_2_11_wf : GatherDims.WF S16384x1000 S16384x1x1 S16384x1 [] [1] [0] [1] [0] 2 ![1, 1]
  dot_S1280x16384_S16384x1280_S1280x1280_1_0_0_1_n_n_wf : DotDims.WF S1280x16384 S16384x1280 S1280x1280 [1] [0] [0] [1] [] []
  dot_S1000x1280_S1280x1000_S1000x1000_1_0_0_1_n_n_wf : DotDims.WF S1000x1280 S1280x1000 S1000x1000 [1] [0] [0] [1] [] []

variable [Facts₀]

def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf
def dot_S1280x16384_S16384x1280_S1280x1280_1_0_0_1_n_n : DotDims S1280x16384 S16384x1280 S1280x1280 where
  lhsContracting := [1]
  rhsContracting := [0]
  lhsNonContracting := [0]
  rhsNonContracting := [1]
  lhsBatch := []
  rhsBatch := []
  wf := dot_S1280x16384_S16384x1280_S1280x1280_1_0_0_1_n_n_wf
def dot_S1000x1280_S1280x1000_S1000x1000_1_0_0_1_n_n : DotDims S1000x1280 S1280x1000 S1000x1000 where
  lhsContracting := [1]
  rhsContracting := [0]
  lhsNonContracting := [0]
  rhsNonContracting := [1]
  lhsBatch := []
  rhsBatch := []
  wf := dot_S1000x1280_S1280x1000_S1000x1000_1_0_0_1_n_n_wf

class Facts : Prop extends Facts₀ where

variable [Facts]
-- ==== Proof.LibCallCasts.lean ====
/-
  The casts an inlined function call leaves around its values cancel.

  An operation of an inlined function call reads and writes its buffers through typed references: a value is carried
  to the buffer's own type when written (`toBuf`) and back when read (`ofBuf`), each a cast along the reference's
  type equation. So the fold of a line of such operations leaves one `ofBuf (toBuf v)` around every operand that
  another operation of the call produced. The two casts run along an equation and its inverse, so the pair is the
  identity; rewriting with that leaves the operations' plain composition.
-/
import Idealize.ShloMosaic.Lib.StableHlo

namespace Cert.LibCallCasts

open Idealize.ShloMosaic Idealize.ShloMosaic.StableHlo

variable {sig : RefSig} {Val : EltTy → Type}

/-- Contents carried to a buffer's type and back are the contents. -/
theorem ofBuf_toBuf {T : BufTy} (x : TRef sig T) (v : T.Contents Val) : x.ofBuf (x.toBuf v) = v := by
  unfold TRef.ofBuf TRef.toBuf
  simp only [cast_cast, cast_eq]

end Cert.LibCallCasts
-- ==== Proof.Spec.lean ====
/-
  The loss both programs compute, written once as plain sums over coordinates of the argument arrays, at the
  ideal instance (a float an extended real, every operation exact).

  With F the [16384, 1280] feature matrix and W the [1000, 1280] weight matrix, the result is the weighted sum
  `combine` of six numbers:
    * the negative mean of the gathered log-probabilities (the same host chain in both programs, kept whole);
    * the KL statistic  (sum over rows b and columns j of  L(b,j) * (1280 * exp L(b,j) - 1)) / 16384  in the kernel's
      arrangement (`klK`), and  (1280 * sum exp L * L - sum L) / 16384  in the reference's (`klR`), L the row-wise
      log-softmax, spelt  x - (log sumexp + max)  by the kernel (`lsmK`) and  (x - max) - log sumexp  by the
      reference (`lsmR`);
    * the squared Frobenius distance from the identity of the covariance matrix, whose entry (i, j) is
      gram(i,j)/16384 - mean(i) * mean(j)  in the kernel (`covK`) and  (sum over b of the product of the centred
      columns i and j) / 16384  in the reference (`covR`);
    * the squared Frobenius distance from the identity of W W^T (`orthoS`), the sum of |W| (`l1S`) and the sum of
      squares of W (`l2S`).
-/
import Idealize.ShloMosaic.PureOps.Ideal
import Idealize.ShloMosaic.Lib.ValueIdx

noncomputable section

namespace Cert.Loss

open Idealize.ShloMosaic Idealize.ShloMosaic.ValueIdx

/-- The feature matrix's shape and the weight matrix's. -/
abbrev SF : Shape := ⟨2, ![16384, 1280]⟩
abbrev SW : Shape := ⟨2, ![1000, 1280]⟩

/-! ## The float words the two programs share -/

/-- 0.0, 1.0, 16384.0 (the batch size), 1280.0 (the feature width), -inf, 0.2 and 0.1 as f32 words read at the ideal instance. -/
def zeroW : EReal := Ideal.ofBits .f32 0x00000000#32
def oneW : EReal := Ideal.ofBits .f32 0x3F800000#32
def nW : EReal := Ideal.ofBits .f32 0x46800000#32
def cW : EReal := Ideal.ofBits .f32 0x44A00000#32
def negInfW : EReal := Ideal.ofBits .f32 0xFF800000#32
def w02 : EReal := Ideal.ofBits .f32 0x3E4CCCCD#32
def w01 : EReal := Ideal.ofBits .f32 0x3DCCCCCD#32

/-! ## The feature statistics -/

section Features
variable (A : SF.Idx → EReal)

/-- Column sums and the Gram matrix F^T F. -/
def colSum (j : Fin 1280) : EReal := ∑ b : Fin 16384, A (ix2 b j)
def gram (i j : Fin 1280) : EReal := ∑ b : Fin 16384, A (ix2 b i) * A (ix2 b j)

/-- The row maximum, folded from -inf, and the row's sum of exponentials of the shifted entries. -/
def rowMax (b : Fin 16384) : EReal := (Finset.univ : Finset (Fin 1280)).fold max negInfW fun k => A (ix2 b k)
def sumExp (b : Fin 16384) : EReal := ∑ j : Fin 1280, Ideal.exp (A (ix2 b j) - rowMax A b)

/-- The log-softmax as the kernel spells it and as the reference does (whose row maximum is once more
    maximised against -inf). -/
def lsmK (b : Fin 16384) (j : Fin 1280) : EReal := A (ix2 b j) - (Ideal.log (sumExp A b) + rowMax A b)
def rowMaxR (b : Fin 16384) : EReal := max negInfW (rowMax A b)
def sumExpR (b : Fin 16384) : EReal := ∑ j : Fin 1280, Ideal.exp (A (ix2 b j) - rowMaxR A b)
def lsmR (b : Fin 16384) (j : Fin 1280) : EReal := (A (ix2 b j) - rowMaxR A b) - Ideal.log (sumExpR A b)

/-- The KL statistic in the kernel's arrangement and in the reference's. -/
def klK : EReal :=
  Ideal.div (∑ b : Fin 16384, ∑ j : Fin 1280, lsmK A b j * (cW * Ideal.exp (lsmK A b j) - oneW)) nW
def klR : EReal :=
  Ideal.div (cW * (∑ b : Fin 16384, ∑ j : Fin 1280, Ideal.exp (lsmR A b j) * lsmR A b j)
    - ∑ b : Fin 16384, ∑ j : Fin 1280, lsmR A b j) nW

/-- The column means and the covariance entry in the kernel's arrangement and in the reference's. -/
def meanC (j : Fin 1280) : EReal := Ideal.div (colSum A j) nW
def covK (i j : Fin 1280) : EReal := Ideal.div (gram A i j) nW - meanC A i * meanC A j
def covR (i j : Fin 1280) : EReal :=
  Ideal.div (∑ b : Fin 16384, (A (ix2 b i) - meanC A i) * (A (ix2 b j) - meanC A j)) nW

end Features

/-- The identity matrix's entry. -/
def delta {n : Nat} (p q : Fin n) : EReal := if p = q then 1 else 0

/-- The squared Frobenius distance of a 1280 x 1280 matrix from the identity. -/
def covLoss (C : Fin 1280 → Fin 1280 → EReal) : EReal :=
  ∑ i : Fin 1280, ∑ j : Fin 1280, (C i j - delta i j) * (C i j - delta i j)

/-! ## The weight statistics -/

section Weights
variable (B : SW.Idx → EReal)

def wGram (p q : Fin 1000) : EReal := ∑ k : Fin 1280, B (ix2 p k) * B (ix2 q k)
def orthoS : EReal := ∑ p : Fin 1000, ∑ q : Fin 1000, (wGram B p q - delta p q) * (wGram B p q - delta p q)
def l1S : EReal := ∑ p : Fin 1000, ∑ k : Fin 1280, max (B (ix2 p k)) (-(B (ix2 p k)))
def l2S : EReal := ∑ p : Fin 1000, ∑ k : Fin 1280, B (ix2 p k) * B (ix2 p k)

end Weights

/-- The weighted sum of the six losses, in the order both programs add them. -/
def combine (nll kl cov ortho l1 l2 : EReal) : EReal :=
  ((((oneW * nll + w02 * kl) + w02 * cov) + w01 * ortho) + w01 * l1) + w01 * Ideal.sqrt l2

/-- Every entry of an array is a real number. -/
def AllReal {S : Shape} (A : S.Idx → EReal) : Prop := ∀ i, ∃ r : ℝ, A i = (r : EReal)

end Cert.Loss

end
-- ==== Proof.LibRowMax.lean ====
/-
  The largest entry along the last axis, read at an index.

  At the ideal instance a float is an extended real and a maximum is the exact fold of `max` in any order. For an
  `[a, b]` matrix, a kernel's `vector.multi_reduction <maximumf>` over axis 1 started from the word of `-∞`, read at row
  `p`, is the fold of `max` from that word's value over the row's entries (`laneMax_row`). For an `[a, b, c]` array,
  the host's `reduce` with a `maximum` body over axis 2, read at `(p, q)`, is the fold of `max` from the initial value
  over the entries `(p, q, k)` (`hostMax_last3`); `lift_last3` is the index fact under it: over `(p, q)` the index
  with the dropped last coordinate `k` put back is `(p, q, k)`.
-/
import Idealize.ShloMosaic.Lib.IdealHost

namespace Cert.LibRowMax

open Idealize.ShloMosaic Idealize.ShloMosaic.ValueIdx

variable {a b c : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- A kernel's f32 maximum along the columns started from the word of `-∞`, read at row `p`: the fold of `max` from
    that word's value over the row's entries. -/
theorem laneMax_row (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) fun k => v (ix2 p k) := by
  refine (multiReduction_maximumf_eq_fold v 0xFF800000#32 h hφ hacc (ix1 p)).trans ?_
  refine (h.fold_filter_drop_single _ _ v (ix1 p)).trans ?_
  exact congrArg (fun f => Finset.fold max (Ideal.ofBits .f32 0xFF800000#32) f (Finset.univ : Finset (Fin b)))
    (funext fun k => congrArg v (lift_row h p k))

/-- Over `(p, q)` of an `[a, b, c]` array reduced along its last axis, the index whose dropped coordinate is `k`
    is `(p, q, k)`. -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- The host's `reduce` with a `maximum` body along the last axis of an `[a, b, c]` array, read at `(p, q)`: the
    fold of `max` from the initial value over the entries `(p, q, k)`. -/
theorem hostMax_last3 {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) fun k => x (ix3 p q k) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last3 h p q k))

end Cert.LibRowMax
-- ==== Proof.LibHostRowMax.lean ====
/-
  The host's largest entry along the columns, read at a row.

  At the ideal instance a float is an extended real and a maximum is the exact fold of `max` in any order. For an
  `[a, b]` matrix, the host's `reduce` with a `maximum` body over axis 1, read at row `p`, is the fold of `max` from
  the initial value over the row's entries `(p, k)`: the rank-2 companion of the rank-3 form `hostMax_last3`, over the
  same index fact `lift_row`.
-/
import proofs.«135353_j33835752358351_2_alg».proof.Proof.LibRowMax

noncomputable section

namespace Cert.LibHostRowMax

open Idealize.ShloMosaic Idealize.ShloMosaic.ValueIdx

/-- The host's `reduce` with a `maximum` body along the columns of an `[a, b]` array, read at row `p`: the fold of
    `max` from the initial value over the row's entries. -/
theorem hostMax_row {a b : ℕ} {u : Shape} (x : FVec Ideal ⟨2, ![a, b]⟩ .f32) (init : FVec Ideal u .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) fun k => x (ix2 p k) := by
  have h : (⟨2, ![a, b]⟩ : Shape).Reduces [1] ⟨1, ![a]⟩ := ⟨h'.1, Nat.one_pos, h'.2⟩
  refine (Host.reduce_eq_fold_single (FloatOps.maximumf (F := Ideal) (φ := .f32)) x init h' h hu (ix1 p)).trans ?_
  exact congrArg (fun f => Finset.fold max (init (Shape.Idx.first hu)) f (Finset.univ : Finset (Fin b)))
    (funext fun k => congrArg x (Cert.LibRowMax.lift_row h p k))

end Cert.LibHostRowMax

end
-- ==== Proof.RefValue.lean ====
/-
  The reference program's result is the spec's weighted sum.

  Each loss term of the reference is read off its stages at an index, one lemma per term, at the ideal instance
  (a float an extended real, every operation exact):
    * the row-wise log-softmax of the features: the row maximum folded from -inf and maximised once more against
      -inf (`rowMaxR`), the shifted entries, the row's sum of their exponentials (`sumExpR`), and
      (x - max) - log sumexp (`lsmR`); then the KL statistic (1280 * sum exp L * L - sum L) / 16384 (`klR`), the two
      sums over every index of the [16384, 1280] array turned into double sums over the coordinates;
    * the column sums and means of the features, the centred features, their product with their transpose divided
      by 16384 (`covR`), the identity matrix as the comparison of the two coordinate words converted to a float
      (`delta`), and the sum of the squared differences (`covLoss`);
    * for the weights, W W^T (`wGram`) against the identity (`orthoS`), the sum of |W| (`l1S`) and the sum of
      squares (`l2S`);
    * the weighted sum of the six numbers (`combine`), the negative mean of the gathered log-probabilities kept as
      the reference's own stage.
-/
import proofs.«135353_j33835752358351_2_alg».proof.Proof.Spec
import proofs.«135353_j33835752358351_2_alg».proof.Proof.RefReadP
import proofs.«135353_j33835752358351_2_alg».proof.Proof.LibHostRowMax

noncomputable section

namespace Cert.Loss.Ref

open Cert.ReferenceIdeal Cert.ReferenceIdeal.Gen Cert.ReferenceIdeal.Read Idealize.ShloMosaic Idealize.ShloMosaic.ValueIdx

/-! ## The identity matrix by comparing the two coordinate words -/

/-- The unsigned conversion of the comparison of two coordinate words below 2^32 is the identity matrix's entry. -/
theorem iota_delta {n : Nat} (hn : n ≤ 2 ^ 32) (p q : Fin n) :
    FloatOps.uitofp (F := Ideal) .f32
        (IntOp.cmpi .eq (IntOp.addi (BitVec.ofNat 32 p.val) 0#32) (BitVec.ofNat 32 q.val)) = delta p q := by
  have hadd : IntOp.addi (BitVec.ofNat 32 p.val) 0#32 = BitVec.ofNat 32 p.val := BitVec.add_zero _
  rw [hadd]
  unfold delta
  by_cases h : p = q
  · subst h
    rw [if_pos rfl]
    have e : IntOp.cmpi .eq (BitVec.ofNat 32 p.val) (BitVec.ofNat 32 p.val) = 1#1 := by
      show BitVec.ofBool (BitVec.ofNat 32 p.val == BitVec.ofNat 32 p.val) = 1#1
      rw [beq_self_eq_true]; rfl
    rw [e]
    show ((((1#1 : BitVec 1).toNat : ℝ)) : EReal) = 1
    have e1 : (1#1 : BitVec 1).toNat = 1 := by decide
    rw [e1, Nat.cast_one, EReal.coe_one]
  · rw [if_neg h]
    have hne : ¬ BitVec.ofNat 32 p.val = BitVec.ofNat 32 q.val := by
      intro e
      apply h
      have e2 := congrArg BitVec.toNat e
      have hp := p.isLt
      have hq := q.isLt
      rw [BitVec.toNat_ofNat, BitVec.toNat_ofNat, Nat.mod_eq_of_lt (by omega), Nat.mod_eq_of_lt (by omega)] at e2
      exact Fin.ext e2
    have e : IntOp.cmpi .eq (BitVec.ofNat 32 p.val) (BitVec.ofNat 32 q.val) = 0#1 := by
      show BitVec.ofBool (BitVec.ofNat 32 p.val == BitVec.ofNat 32 q.val) = 0#1
      rw [beq_eq_false_iff_ne.mpr hne]; rfl
    rw [e]
    show ((((0#1 : BitVec 1).toNat : ℝ)) : EReal) = 0
    have e0 : (0#1 : BitVec 1).toNat = 0 := by decide
    rw [e0, Nat.cast_zero, EReal.coe_zero]

/-! ## The weight statistics -/

abbrev XW := (⟨S1000x1280, .f32⟩ : BufTy).Contents (Elt Ideal)

theorem lidx_v33 (p q : Fin 1000) (k : Fin 1280) : lidx_main_v33 (ix2 p q) k = ix2 p k :=
  funext fun a => Fin.ext (by match a with | ⟨0, _⟩ => rfl | ⟨1, _⟩ => rfl)

theorem ridx_v33 (p q : Fin 1000) (k : Fin 1280) : idx_main_v32 (ridx_main_v33 (ix2 p q) k) = ix2 q k :=
  funext fun a => Fin.ext (by match a with | ⟨0, _⟩ => rfl | ⟨1, _⟩ => rfl)

/-- The product of the weight matrix with its transpose, entry (p, q). -/
theorem wGram_apply (x2 : XW) (p q : Fin 1000) : val_main_v33 (F := Ideal) x2 (ix2 p q) = wGram x2 p q := by
  rw [val_main_v33_apply]
  simp only [val_main_v32_apply, lidx_v33, ridx_v33]
  rfl

/-- The 1000 x 1000 identity matrix. -/
theorem v39_apply (p q : Fin 1000) : val_main_v39 (F := Ideal) (ix2 p q) = delta p q := by
  rw [val_main_v39_apply, val_main_v38_apply, val_main_v37_apply, val_main_v34_apply, val_main_v35_apply,
    val_main_v36_apply, val_main_c_9_apply]
  exact iota_delta (by norm_num) p q

/-- The squared Frobenius distance of W W^T from the identity. -/
theorem ortho (x2 : XW) (i : S_.Idx) : val_main_v42 (F := Ideal) x2 i = orthoS x2 := by
  rw [val_main_v42_apply, val_main_cst_10_apply, sum_idx2 (val_main_v41 (F := Ideal) x2)]
  simp only [val_main_v41_apply, val_main_v40_apply, wGram_apply, v39_apply, Ideal.ofBits_def, Ideal.ofBits_zero_f32,
    zero_add, Ideal.mulf_def, Ideal.subf_def]
  rfl

/-- The sum of the absolute values of the weights. -/
theorem l1 (x2 : XW) (i : S_.Idx) : val_main_v44 (F := Ideal) x2 i = l1S x2 := by
  rw [val_main_v44_apply, val_main_cst_11_apply, sum_idx2 (val_main_v43 (F := Ideal) x2)]
  simp only [val_main_v43_apply, Ideal.ofBits_def, Ideal.ofBits_zero_f32, zero_add, Ideal.hostAbsf_def, Ideal.absf_def]
  rfl

/-- The sum of the squares of the weights. -/
theorem l2 (x2 : XW) (i : S_.Idx) : val_main_v46 (F := Ideal) x2 i = l2S x2 := by
  rw [val_main_v46_apply, val_main_cst_12_apply, sum_idx2 (val_main_v45 (F := Ideal) x2)]
  simp only [val_main_v45_apply, Ideal.ofBits_def, Ideal.ofBits_zero_f32, zero_add, Ideal.mulf_def]
  rfl

/-! ## The log-softmax of the features and the KL statistic -/

abbrev XF := (⟨S16384x1280, .f32⟩ : BufTy).Contents (Elt Ideal)

/-- The row maximum the reference folds from -inf. -/
theorem rowMax_apply (x3 : XF) (b : Fin 16384) : val_main_call1_v0 (F := Ideal) x3 (ix1 b) = rowMax x3 b :=
  Cert.LibHostRowMax.hostMax_row x3 (val_main_call1_cst (F := Ideal)) reducesTo_S16384x1280_S16384_d1 h_S_ b

/-- The row maximum maximised once more against -inf. -/
theorem rowMaxR_apply (x3 : XF) (b : Fin 16384) : val_main_call1_v2 (F := Ideal) x3 (ix1 b) = rowMaxR x3 b := by
  rw [val_main_call1_v2_apply, val_main_call1_v1_apply, val_main_call1_cst_0_apply, rowMax_apply]
  rfl

theorem idx_v3v4 (b : Fin 16384) (j : Fin 1280) : idx_main_call1_v3 (idx_main_call1_v4 (ix2 b j)) = ix1 b :=
  funext fun a => Fin.ext (by match a with | ⟨0, _⟩ => rfl)

/-- The entry less its row's maximum. -/
theorem shift_apply (x3 : XF) (b : Fin 16384) (j : Fin 1280) :
    val_main_call1_v5 (F := Ideal) x3 (ix2 b j) = x3 (ix2 b j) - rowMaxR x3 b := by
  rw [val_main_call1_v5_apply, val_main_call1_v4_apply, val_main_call1_v3_apply, idx_v3v4, rowMaxR_apply]
  rfl

theorem idx_v7 (b : Fin 16384) (k : Fin 1280) : idx_main_call1_v7 (ix1 b) k = ix2 b k :=
  funext fun a => Fin.ext (by match a with | ⟨0, _⟩ => rfl | ⟨1, _⟩ => rfl)

/-- The row's sum of exponentials of the shifted entries. -/
theorem sumExpR_apply (x3 : XF) (b : Fin 16384) : val_main_call1_v7 (F := Ideal) x3 (ix1 b) = sumExpR x3 b := by
  rw [val_main_call1_v7_apply, val_main_call1_cst_1_apply]
  simp only [idx_v7, val_main_call1_v6_apply, shift_apply, Ideal.ofBits_def, Ideal.hostUnary_exp_def,
    Ideal.ofBits_zero_f32, zero_add]
  rfl

theorem idx_v8v10 (b : Fin 16384) (j : Fin 1280) : idx_main_call1_v8 (idx_main_call1_v10 (ix2 b j)) = ix1 b :=
  funext fun a => Fin.ext (by match a with | ⟨0, _⟩ => rfl)

/-- The log-softmax, entry (b, j). -/
theorem lsmR_apply (x3 : XF) (b : Fin 16384) (j : Fin 1280) : val_main_v5 (F := Ideal) x3 (ix2 b j) = lsmR x3 b j := by
  rw [val_main_v5_apply, shift_apply, val_main_call1_v10_apply, val_main_call1_v9_apply, val_main_call1_v8_apply,
    idx_v8v10, sumExpR_apply]
  rfl

/-- The KL statistic. -/
theorem kl (x3 : XF) (i : S_.Idx) : val_main_v12 (F := Ideal) x3 i = klR x3 := by
  rw [val_main_v12_apply, val_main_v11_apply, val_main_v9_apply, val_main_v8_apply, val_main_v10_apply,
    val_main_cst_4_apply, val_main_cst_2_apply, val_main_cst_1_apply, val_main_cst_3_apply,
    sum_idx2 (val_main_v7 (F := Ideal) x3), sum_idx2 (val_main_v5 (F := Ideal) x3)]
  simp only [val_main_v7_apply, val_main_v6_apply, lsmR_apply, Ideal.ofBits_def, Ideal.ofBits_zero_f32, zero_add,
    Ideal.mulf_def, Ideal.subf_def, Ideal.hostDivf_def, Ideal.hostUnary_exp_def]
  rfl

/-! ## The covariance matrix of the features and its distance from the identity -/

theorem idx_v13 (p : Fin 1280) (k : Fin 16384) : idx_main_v13 (ix1 p) k = ix2 k p :=
  funext fun a => Fin.ext (by match a with | ⟨0, _⟩ => rfl | ⟨1, _⟩ => rfl)

/-- The column sums. -/
theorem colSum_apply (x3 : XF) (p : Fin 1280) : val_main_v13 (F := Ideal) x3 (ix1 p) = colSum x3 p := by
  rw [val_main_v13_apply, val_main_cst_5_apply]
  simp only [idx_v13, Ideal.ofBits_def, Ideal.ofBits_zero_f32, zero_add]
  rfl

theorem idx_v14v17 (k : Fin 16384) (p : Fin 1280) : idx_main_v14 (idx_main_v17 (ix2 k p)) = ix1 p :=
  funext fun a => Fin.ext (by match a with | ⟨0, _⟩ => rfl)

/-- The column means, broadcast along the rows. -/
theorem mean_apply (x3 : XF) (k : Fin 16384) (p : Fin 1280) : val_main_v17 (F := Ideal) x3 (ix2 k p) = meanC x3 p := by
  rw [val_main_v17_apply, val_main_v16_apply, val_main_v14_apply, val_main_v15_apply, val_main_cst_6_apply,
    idx_v14v17, colSum_apply]
  rfl

/-- The centred features. -/
theorem centred_apply (x3 : XF) (k : Fin 16384) (p : Fin 1280) :
    val_main_v18 (F := Ideal) x3 (ix2 k p) = x3 (ix2 k p) - meanC x3 p := by
  rw [val_main_v18_apply, mean_apply]
  rfl

theorem lidx_v20 (p q : Fin 1280) (k : Fin 16384) : idx_main_v19 (lidx_main_v20 (ix2 p q) k) = ix2 k p :=
  funext fun a => Fin.ext (by match a with | ⟨0, _⟩ => rfl | ⟨1, _⟩ => rfl)

theorem ridx_v20 (p q : Fin 1280) (k : Fin 16384) : ridx_main_v20 (ix2 p q) k = ix2 k q :=
  funext fun a => Fin.ext (by match a with | ⟨0, _⟩ => rfl | ⟨1, _⟩ => rfl)

/-- The covariance matrix, entry (p, q). -/
theorem covR_apply (x3 : XF) (p q : Fin 1280) : val_main_v22 (F := Ideal) x3 (ix2 p q) = covR x3 p q := by
  rw [val_main_v22_apply, val_main_v20_apply, val_main_v21_apply, val_main_cst_7_apply]
  simp only [val_main_v19_apply, lidx_v20, ridx_v20, centred_apply]
  rfl

/-- The 1280 x 1280 identity matrix. -/
theorem v28_apply (p q : Fin 1280) : val_main_v28 (F := Ideal) (ix2 p q) = delta p q := by
  rw [val_main_v28_apply, val_main_v27_apply, val_main_v26_apply, val_main_v23_apply, val_main_v24_apply,
    val_main_v25_apply, val_main_c_apply]
  exact iota_delta (by norm_num) p q

/-- The squared Frobenius distance of the covariance matrix from the identity. -/
theorem cov (x3 : XF) (i : S_.Idx) : val_main_v31 (F := Ideal) x3 i = covLoss (covR x3) := by
  rw [val_main_v31_apply, val_main_cst_8_apply, sum_idx2 (val_main_v30 (F := Ideal) x3)]
  simp only [val_main_v30_apply, val_main_v29_apply, covR_apply, v28_apply, Ideal.ofBits_def, Ideal.ofBits_zero_f32,
    zero_add, Ideal.mulf_def, Ideal.subf_def]
  rfl

/-! ## The weighted sum -/

/-- The reference's result is the weighted sum of the six losses. -/
theorem ref_result (x0 : (⟨S16384x1000, .f32⟩ : BufTy).Contents (Elt Ideal)) (x1 : (⟨S16384, .i32⟩ : BufTy).Contents (Elt Ideal))
    (x2 : (⟨S1000x1280, .f32⟩ : BufTy).Contents (Elt Ideal)) (x3 : (⟨S16384x1280, .f32⟩ : BufTy).Contents (Elt Ideal)) (i : S_.Idx) :
    val_main_v58 (F := Ideal) x0 x1 x2 x3 i
      = combine (val_main_v4 (F := Ideal) x0 x1 ix0) (klR x3) (covLoss (covR x3)) (orthoS x2) (l1S x2) (l2S x2) := by
  obtain rfl : i = ix0 := eq_ix0 i
  rw [val_main_v58_apply, val_main_v57_apply, val_main_v56_apply, val_main_v55_apply, val_main_v54_apply,
    val_main_v53_apply, val_main_v52_apply, val_main_v51_apply, val_main_v50_apply, val_main_v49_apply,
    val_main_v48_apply, val_main_v47_apply, kl, cov, ortho, l1, l2, val_main_cst_13_apply, val_main_cst_14_apply,
    val_main_cst_15_apply, val_main_cst_16_apply, val_main_cst_17_apply, val_main_cst_18_apply]
  rfl

end Cert.Loss.Ref

end
-- ==== Proof.AlgebraReal.lean ====
/-
  Two identities between finite sums of real numbers.

  * The KL rearrangement: the sum over b and j of  l(b,j) * (c * exp l(b,j) - 1)  is  c * (sum of exp l * l) - (sum of l).
  * The covariance identity: with N the number of rows, Sx and Sy the sums of two columns x and y and Q the sum of
    their products,  Q/N - (Sx/N)(Sy/N)  is  (sum over b of (x b - Sx/N)(y b - Sy/N)) / N.  Division by N is written
    as the product with 1/N throughout.
  * A finite sum of coerced reals in the extended reals is the coerced sum, and the fold of max from the bottom over a
    nonempty finite family of coerced reals is a coerced real.
-/
import Mathlib

open scoped BigOperators

namespace Cert.Loss.RealId

/-- The KL rearrangement, termwise  l * (c * e - 1) = c * (e * l) - l. -/
theorem kl_identity {β γ : Type*} [Fintype β] [Fintype γ] (c : ℝ) (l : β → γ → ℝ) :
    ∑ b, ∑ j, l b j * (c * Real.exp (l b j) - 1)
      = c * (∑ b, ∑ j, Real.exp (l b j) * l b j) - ∑ b, ∑ j, l b j := by
  rw [Finset.mul_sum, ← Finset.sum_sub_distrib]
  refine Finset.sum_congr rfl fun b _ => ?_
  rw [Finset.mul_sum, ← Finset.sum_sub_distrib]
  refine Finset.sum_congr rfl fun j _ => ?_
  ring

/-- The sum of the products of two centred columns, expanded. -/
theorem centred_sum {β : Type*} [Fintype β] (N : ℝ) (hcard : (Fintype.card β : ℝ) = N) (x y : β → ℝ) (mx my : ℝ) :
    ∑ b, (x b - mx) * (y b - my)
      = (∑ b, x b * y b) - mx * (∑ b, y b) - my * (∑ b, x b) + N * (mx * my) := by
  have h : ∀ b, (x b - mx) * (y b - my) = x b * y b - mx * y b - my * x b + mx * my := fun b => by ring
  rw [Finset.sum_congr rfl fun b _ => h b]
  rw [Finset.sum_add_distrib, Finset.sum_sub_distrib, Finset.sum_sub_distrib, ← Finset.mul_sum, ← Finset.mul_sum,
    Finset.sum_const, Finset.card_univ, nsmul_eq_mul, hcard]

/-- The covariance identity. -/
theorem cov_identity {β : Type*} [Fintype β] (N : ℝ) (hN : N ≠ 0) (hcard : (Fintype.card β : ℝ) = N) (x y : β → ℝ) :
    (∑ b, x b * y b) * (1 / N) - ((∑ b, x b) * (1 / N)) * ((∑ b, y b) * (1 / N))
      = (∑ b, (x b - (∑ b, x b) * (1 / N)) * (y b - (∑ b, y b) * (1 / N))) * (1 / N) := by
  rw [centred_sum N hcard]
  field_simp
  ring

/-- A finite sum of coerced reals is the coerced sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of max from the bottom over a nonempty finite family of coerced reals is a coerced real. -/
theorem fold_max_bot_coe {ι : Type*} (s : Finset ι) (hs : s.Nonempty) (f : ι → ℝ) :
    ∃ r : ℝ, s.fold max (⊥ : EReal) (fun k => (f k : EReal)) = (r : EReal) := by
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

end Cert.Loss.RealId
-- ==== Proof.Algebra.lean ====
/-
  The feature statistics on an array of reals: the kernel's arrangement and the reference's agree.

  With every entry of A a real, the row maximum (a fold of max from -inf over 1280 reals) is a real m(b), so the
  reference's second maximisation against -inf changes nothing; exp of a real is a positive real, so the row's sum of
  exponentials s(b) is a positive real and its logarithm a real. Hence both spellings of the log-softmax are the real
  l(b,j) = x(b,j) - m(b) - log s(b). The KL statistic and the covariance entry are then finite sums, products and
  differences of reals, divided by the real 16384, and the two arrangements of each are equal by an identity of
  real numbers (the KL rearrangement and the covariance identity).
-/
import proofs.«135353_j33835752358351_2_alg».proof.Proof.Spec
import proofs.«135353_j33835752358351_2_alg».proof.Proof.AlgebraReal
import Idealize.ShloMosaic.PureOps.Ideal.Laws

noncomputable section

namespace Cert.Loss

open Idealize.ShloMosaic Idealize.ShloMosaic.ValueIdx

/-! ## The float words -/

/-- The word of 0 is 0. -/
theorem zeroW_eq : zeroW = 0 := by
  unfold zeroW
  simp [Ideal.ofBits, Ideal.ieee]

/-- The word of 1 is 1: sign 0, exponent 127, mantissa 0. -/
theorem oneW_eq : oneW = 1 := by
  show Ideal.ofBits .f32 0x3F800000#32 = ((1 : ℝ) : EReal)
  simp [Ideal.ofBits, Ideal.ieee, -EReal.coe_mul]
  norm_num

/-- The word of 16384 = 2^14: sign 0, exponent 141, mantissa 0. -/
theorem nW_eq : nW = ((16384 : ℝ) : EReal) := by
  unfold nW
  simp [Ideal.ofBits, Ideal.ieee, -EReal.coe_mul]
  norm_num

/-- The word of 1280 = (2^23 + 2^21) * 2^(-13): sign 0, exponent 137, mantissa 2^21. -/
theorem cW_eq : cW = ((1280 : ℝ) : EReal) := by
  unfold cW
  simp [Ideal.ofBits, Ideal.ieee, -EReal.coe_mul]
  norm_num

/-- The word of -inf: sign 1, exponent all ones, mantissa 0. -/
theorem negInfW_eq : negInfW = ⊥ := by
  unfold negInfW
  simp [Ideal.ofBits, Ideal.ieee]

/-! ## The log-softmax of a real array -/

private theorem fin1280_nonempty : (Finset.univ : Finset (Fin 1280)).Nonempty :=
  ⟨⟨0, by norm_num⟩, Finset.mem_univ _⟩

/-- The row maximum of a real array is a real. -/
theorem rowMax_real (a : SF.Idx → ℝ) (b : Fin 16384) :
    ∃ m : ℝ, rowMax (fun i => (a i : EReal)) b = (m : EReal) := by
  unfold rowMax
  rw [negInfW_eq]
  exact RealId.fold_max_bot_coe _ fin1280_nonempty fun k => a (ix2 b k)

/-- Both spellings of the log-softmax of a real array are one real array. -/
theorem lsm_real (a : SF.Idx → ℝ) :
    ∃ l : Fin 16384 → Fin 1280 → ℝ,
      (∀ b j, lsmK (fun i => (a i : EReal)) b j = (l b j : EReal)) ∧
      (∀ b j, lsmR (fun i => (a i : EReal)) b j = (l b j : EReal)) := by
  choose m hm using rowMax_real a
  have hmR : ∀ b, rowMaxR (fun i => (a i : EReal)) b = (m b : EReal) := fun b => by
    unfold rowMaxR
    rw [negInfW_eq, hm]
    exact max_eq_right bot_le
  have hs : ∀ b, sumExp (fun i => (a i : EReal)) b
      = ((∑ j : Fin 1280, Real.exp (a (ix2 b j) - m b) : ℝ) : EReal) := fun b => by
    unfold sumExp
    rw [hm, RealId.coe_sum]
    exact Finset.sum_congr rfl fun j _ => by rw [← EReal.coe_sub, Ideal.exp_coe]
  have hsR : ∀ b, sumExpR (fun i => (a i : EReal)) b
      = ((∑ j : Fin 1280, Real.exp (a (ix2 b j) - m b) : ℝ) : EReal) := fun b => by
    unfold sumExpR
    rw [hmR, RealId.coe_sum]
    exact Finset.sum_congr rfl fun j _ => by rw [← EReal.coe_sub, Ideal.exp_coe]
  have hpos : ∀ b, 0 < ∑ j : Fin 1280, Real.exp (a (ix2 b j) - m b) := fun b =>
    Finset.sum_pos (fun j _ => Real.exp_pos _) fin1280_nonempty
  have hlog : ∀ b, Ideal.log ((∑ j : Fin 1280, Real.exp (a (ix2 b j) - m b) : ℝ) : EReal)
      = ((Real.log (∑ j : Fin 1280, Real.exp (a (ix2 b j) - m b)) : ℝ) : EReal) := fun b => by
    rw [Ideal.log_coe, if_neg (not_le.mpr (hpos b))]
  refine ⟨fun b j => a (ix2 b j) - m b - Real.log (∑ j : Fin 1280, Real.exp (a (ix2 b j) - m b)),
    fun b j => ?_, fun b j => ?_⟩
  · unfold lsmK
    rw [hs, hlog, hm, ← EReal.coe_add, ← EReal.coe_sub]
    congr 1
    ring
  · unfold lsmR
    rw [hsR, hlog, hmR, ← EReal.coe_sub, ← EReal.coe_sub]

/-! ## The KL statistic -/

theorem klK_eq_klR (A : SF.Idx → EReal) (hA : AllReal A) : klK A = klR A := by
  choose a ha using hA
  obtain rfl : A = fun i => (a i : EReal) := funext ha
  obtain ⟨l, hK, hR⟩ := lsm_real a
  unfold klK klR
  simp only [hK, hR, cW_eq, oneW_eq, nW_eq, Ideal.exp_coe]
  rw [Ideal.div_coe (by norm_num), Ideal.div_coe (by norm_num)]
  simp only [← EReal.coe_one, ← EReal.coe_mul, ← EReal.coe_sub, ← RealId.coe_sum]
  rw [RealId.kl_identity]

/-! ## The covariance entry -/

theorem covK_eq_covR (A : SF.Idx → EReal) (hA : AllReal A) (i j : Fin 1280) : covK A i j = covR A i j := by
  choose a ha using hA
  obtain rfl : A = fun i => (a i : EReal) := funext ha
  unfold covK covR meanC gram colSum
  simp only [nW_eq, Ideal.div_coe (show (16384 : ℝ) ≠ 0 by norm_num), ← EReal.coe_mul, ← EReal.coe_sub,
    ← RealId.coe_sum]
  rw [RealId.cov_identity 16384 (by norm_num) (by simp)]

end Cert.Loss

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«135353_j33835752358351_2_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.Finite.lean ====
/-
  From the precondition to the reals.

  The precondition is the conjunction of three tests, one per float array, each folding by `and` over every entry the
  comparison |x| < +inf. If the conjunction is 1 then the third test is 1, so every comparison on the feature matrix is
  1, and an extended real whose absolute value is below +inf is a real number.
-/
import proofs.«135353_j33835752358351_2_alg».proof.Proof.Spec
import proofs.«135353_j33835752358351_2_alg».proof.Proof.LibAllFinite
import proofs.«135353_j33835752358351_2_alg».proof.Pre_finite_inputs
import Idealize.ShloMosaic.Lib.Affine

noncomputable section

namespace Cert.Loss

open Idealize.ShloMosaic

/-- Under the precondition every entry of the feature matrix is a real number. -/
theorem allReal_of_pre [Cert.Pre_finite_inputs.Facts]
    (x0 : FVec Ideal Cert.Pre_finite_inputs.S16384x1000 .f32) (x1 : IVec Cert.Pre_finite_inputs.S16384 32)
    (x2 : FVec Ideal Cert.Pre_finite_inputs.S1000x1280 .f32) (x3 : FVec Ideal Cert.Pre_finite_inputs.S16384x1280 .f32)
    (h : Cert.Pre_finite_inputs.fn (F := Ideal) x0 x1 x2 x3 = fun _ => 1#1) : AllReal (S := SF) x3 := by
  have h0 : Cert.Pre_finite_inputs.fn (F := Ideal) x0 x1 x2 x3 (fun d => d.elim0) = 1#1 := congrFun h _
  unfold Cert.Pre_finite_inputs.fn at h0
  obtain ⟨_, h12⟩ := IntOp.andi_eq_one.mp h0
  exact Cert.Lib.AllFinite.real_of_all_abs_lt_top x3 _ (fun _ => rfl) _ _ _ _ h12

end Cert.Loss

end
-- ==== Proof.KernelRun.lean ====
/-
  The idealized kernel program's run with its result named: every weakly fair execution of @main terminates, nothing
  faulting, the four argument arrays end as launched, and the result buffer ends at the contents the last stretch of
  host operations leaves in it (`W6`, the fold of @main's segments from the launch memory: the first kernel's
  arrays after its sixteen grid points, three stretches of host operations, the second kernel's arrays, the last
  stretch). What those contents are is read off this fold by the modules that import this one.
-/
import proofs.«135353_j33835752358351_2_alg».proof.Proof.Gen.KernelIdeal.Frame

set_option maxRecDepth 16384

noncomputable section

namespace Cert.KernelIdeal.Res

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Cert.KernelIdeal.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main with the result buffer read at the last boundary's contents. -/
theorem run_result : θ_run defs (onTc (τ := τ) (main (F := F))) ⟨m, fun _ => 0, ρ⟩ (fun r => ∀ c : Dev nD,
      r.2.mem ((c.tc : Thread nD τ).loc main_v41) = W6 m ρ c (Proc.devRef .tc main_v41) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Res

end
-- ==== Proof.AccBody.lean ====
/-
  The first kernel's body, case by case, as values. At a grid point whose inner coordinate is 0 the body first stores
  zeros into the three accumulators and then adds the point's contribution to what it reads back, so it leaves the
  contribution added to zeros; at every other point it adds the contribution to what the point before left. The
  contributions are the generated payloads: the tile's Gram matrix added to the carried block (`k0_pay5`), the tile's
  column sums added to the carried row (`k0_pay6`), and the tile's KL statistic added to the carried scalar
  (`k0_pay1` of the tile's log-softmax `k0_pay7` and of 1280 · exp of it, `k0_pay8`).
-/
import proofs.«135353_j33835752358351_2_alg».proof.Proof.Gen.KernelIdeal.Frame
import Idealize.ShloMosaic.Lib.Pipeline.Value
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.SL.Sem
open Idealize.ShloMosaic.Pipeline (Dat)

variable [Cert.KernelIdeal.Facts]
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A point that carries the accumulators over -/

theorem outB1 (c : Dev nD) (i : grid0.Coords) (a2 : Memref sig .tc .vmem S1024x1280 .f32) (h2 : a2.IsWhole)
    (a3 : Memref sig .tc .vmem S1x1280x1280 .f32) (h3 : a3.IsWhole) (a4 : Memref sig .tc .vmem S1x1x1280 .f32) (h4 : a4.IsWhole)
    (a5 : Memref sig .tc .vmem S1x1x1 .f32) (h5 : a5.IsWhole) (hc : ¬cond0_0 i)
    (x : Vec F S1024x1280 .f32) (xo1 : Vec F S1x1280x1280 .f32) (xo2 : Vec F S1x1x1280 .f32) (xo3 : Vec F S1x1x1 .f32) :
    out0_B_1 c i a2 h2 a3 h3 a4 h4 a5 h5 hc x xo1 xo2 xo3 = k0_pay5 x xo1 := by
  unfold out0_B_1
  rw [View.read_writes_eq_canon _ _ _ (cover0_B_1 c i a2 h2 a3 h3 a4 h4 a5 h5 hc x xo1 xo2 xo3)]
  unfold kernelRun0_B
  dsimp only
  rw [View.canon_unit_zero hz3]
  simp only [View.readAt_eq_ld, h2.read_unread, h3.read_unread, h4.read_unread, h5.read_unread,
    View.ld_unit_zero (S := S1024x1280) hz2, View.ld_unit_zero (S := S1x1280x1280) hz3, View.ld_unit_zero (S := S1x1x1280) hz3,
    View.ld_unit_zero (S := S1x1x1) hz3]

theorem outB2 (c : Dev nD) (i : grid0.Coords) (a2 : Memref sig .tc .vmem S1024x1280 .f32) (h2 : a2.IsWhole)
    (a3 : Memref sig .tc .vmem S1x1280x1280 .f32) (h3 : a3.IsWhole) (a4 : Memref sig .tc .vmem S1x1x1280 .f32) (h4 : a4.IsWhole)
    (a5 : Memref sig .tc .vmem S1x1x1 .f32) (h5 : a5.IsWhole) (hc : ¬cond0_0 i)
    (x : Vec F S1024x1280 .f32) (xo1 : Vec F S1x1280x1280 .f32) (xo2 : Vec F S1x1x1280 .f32) (xo3 : Vec F S1x1x1 .f32) :
    out0_B_2 c i a2 h2 a3 h3 a4 h4 a5 h5 hc x xo1 xo2 xo3 = k0_pay6 x xo2 := by
  unfold out0_B_2
  rw [View.read_writes_eq_canon _ _ _ (cover0_B_2 c i a2 h2 a3 h3 a4 h4 a5 h5 hc x xo1 xo2 xo3)]
  unfold kernelRun0_B
  dsimp only
  rw [View.canon_unit_zero hz3]
  simp only [View.readAt_eq_ld, h2.read_unread, h3.read_unread, h4.read_unread, h5.read_unread,
    View.ld_unit_zero (S := S1024x1280) hz2, View.ld_unit_zero (S := S1x1280x1280) hz3, View.ld_unit_zero (S := S1x1x1280) hz3,
    View.ld_unit_zero (S := S1x1x1) hz3]

theorem outB3 (c : Dev nD) (i : grid0.Coords) (a2 : Memref sig .tc .vmem S1024x1280 .f32) (h2 : a2.IsWhole)
    (a3 : Memref sig .tc .vmem S1x1280x1280 .f32) (h3 : a3.IsWhole) (a4 : Memref sig .tc .vmem S1x1x1280 .f32) (h4 : a4.IsWhole)
    (a5 : Memref sig .tc .vmem S1x1x1 .f32) (h5 : a5.IsWhole) (hc : ¬cond0_0 i)
    (x : Vec F S1024x1280 .f32) (xo1 : Vec F S1x1280x1280 .f32) (xo2 : Vec F S1x1x1280 .f32) (xo3 : Vec F S1x1x1 .f32) :
    out0_B_3 c i a2 h2 a3 h3 a4 h4 a5 h5 hc x xo1 xo2 xo3 = k0_pay1 (k0_pay7 x) (k0_pay8 x) xo3 := by
  unfold out0_B_3
  rw [View.read_writes_eq_canon _ _ _ (cover0_B_3 c i a2 h2 a3 h3 a4 h4 a5 h5 hc x xo1 xo2 xo3)]
  unfold kernelRun0_B
  dsimp only
  sl_unfold_words
  rw [View.canon_unit_zero hz3]
  simp only [View.readAt_eq_ld, h2.read_unread, h3.read_unread, h4.read_unread, h5.read_unread,
    View.ld_unit_zero (S := S1024x1280) hz2, View.ld_unit_zero (S := S1x1280x1280) hz3, View.ld_unit_zero (S := S1x1x1280) hz3,
    View.ld_unit_zero (S := S1x1x1) hz3]

/-! ## A point that starts the accumulators from zero -/

theorem outA1 (c : Dev nD) (i : grid0.Coords) (a2 : Memref sig .tc .vmem S1024x1280 .f32) (h2 : a2.IsWhole)
    (a3 : Memref sig .tc .vmem S1x1280x1280 .f32) (h3 : a3.IsWhole) (a4 : Memref sig .tc .vmem S1x1x1280 .f32) (h4 : a4.IsWhole)
    (a5 : Memref sig .tc .vmem S1x1x1 .f32) (h5 : a5.IsWhole) (hc : cond0_0 i) (x : Vec F S1024x1280 .f32) :
    out0_A_1 c i a2 h2 a3 h3 a4 h4 a5 h5 hc x = k0_pay5 x (k0_pay2 (F := F)) := by
  unfold out0_A_1
  rw [View.read_writes_eq_canon _ _ _ (cover0_A_1 c i a2 h2 a3 h3 a4 h4 a5 h5 hc x)]
  unfold kernelRun0_A
  dsimp only
  sl_unfold_words
  rw [View.canon_cons_unit_zero (S := S1x1280x1280) hz3, View.readCov_unit_zero (S := S1x1280x1280) _ hz3]
  simp only [View.readAt_eq_ld, h2.read_unread, h3.read_unread, h4.read_unread, h5.read_unread,
    View.ld_unit_zero (S := S1024x1280) hz2, View.ld_unit_zero (S := S1x1280x1280) hz3, View.ld_unit_zero (S := S1x1x1280) hz3,
    View.ld_unit_zero (S := S1x1x1) hz3]

theorem outA2 (c : Dev nD) (i : grid0.Coords) (a2 : Memref sig .tc .vmem S1024x1280 .f32) (h2 : a2.IsWhole)
    (a3 : Memref sig .tc .vmem S1x1280x1280 .f32) (h3 : a3.IsWhole) (a4 : Memref sig .tc .vmem S1x1x1280 .f32) (h4 : a4.IsWhole)
    (a5 : Memref sig .tc .vmem S1x1x1 .f32) (h5 : a5.IsWhole) (hc : cond0_0 i) (x : Vec F S1024x1280 .f32) :
    out0_A_2 c i a2 h2 a3 h3 a4 h4 a5 h5 hc x = k0_pay6 x (k0_pay3 (F := F)) := by
  unfold out0_A_2
  rw [View.read_writes_eq_canon _ _ _ (cover0_A_2 c i a2 h2 a3 h3 a4 h4 a5 h5 hc x)]
  unfold kernelRun0_A
  dsimp only
  sl_unfold_words
  rw [View.canon_cons_unit_zero (S := S1x1x1280) hz3, View.readCov_unit_zero (S := S1x1x1280) _ hz3]
  simp only [View.readAt_eq_ld, h2.read_unread, h3.read_unread, h4.read_unread, h5.read_unread,
    View.ld_unit_zero (S := S1024x1280) hz2, View.ld_unit_zero (S := S1x1280x1280) hz3, View.ld_unit_zero (S := S1x1x1280) hz3,
    View.ld_unit_zero (S := S1x1x1) hz3]

theorem outA3 (c : Dev nD) (i : grid0.Coords) (a2 : Memref sig .tc .vmem S1024x1280 .f32) (h2 : a2.IsWhole)
    (a3 : Memref sig .tc .vmem S1x1280x1280 .f32) (h3 : a3.IsWhole) (a4 : Memref sig .tc .vmem S1x1x1280 .f32) (h4 : a4.IsWhole)
    (a5 : Memref sig .tc .vmem S1x1x1 .f32) (h5 : a5.IsWhole) (hc : cond0_0 i) (x : Vec F S1024x1280 .f32) :
    out0_A_3 c i a2 h2 a3 h3 a4 h4 a5 h5 hc x = k0_pay1 (k0_pay7 x) (k0_pay8 x) (k0_pay4 (F := F)) := by
  unfold out0_A_3
  rw [View.read_writes_eq_canon _ _ _ (cover0_A_3 c i a2 h2 a3 h3 a4 h4 a5 h5 hc x)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread,
    View.ld_unit_zero (S := S1024x1280) hz2, View.ld_unit_zero (S := S1x1280x1280) hz3, View.ld_unit_zero (S := S1x1x1280) hz3,
    View.ld_unit_zero (S := S1x1x1) hz3]

end Cert.KernelIdeal.Acc

end
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.AccTile.lean ====
/-
  The first kernel's payloads read at an index, at the ideal instance. For a [1024, 1280] tile x of the feature
  matrix: the Gram payload adds to the carried block, at (i, j), the sum over the tile's rows r of x(r,i) · x(r,j)
  (the product of the bf16-truncated tile with itself contracts the row axis, and truncation is the identity on
  extended reals); the column-sum payload adds to the carried row, at j, the sum over r of x(r,j); the log-softmax
  payload at (r, j) is x(r,j) - (log (sum over k of exp (x(r,k) - M r)) + M r) with M r the maximum of row r folded
  from -inf.
-/
import proofs.«135353_j33835752358351_2_alg».proof.Proof.Gen.KernelIdeal.Skeleton
import proofs.«135353_j33835752358351_2_alg».proof.Proof.LibMatmulCols
import proofs.«135353_j33835752358351_2_alg».proof.Proof.LibAxisFold
import proofs.«135353_j33835752358351_2_alg».proof.Proof.LibRowMax
import proofs.«135353_j33835752358351_2_alg».proof.Proof.LibColumnCast
import proofs.«135353_j33835752358351_2_alg».proof.Proof.LibColBroadcast
import Idealize.ShloMosaic.Lib.ValueLayout
import Idealize.ShloMosaic.Lib.ValueIdx
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.ShloMosaic.ValueIdx

variable [Cert.KernelIdeal.Facts]
open Facts₀ Facts

/-- The Gram payload at (i, j): the carried entry plus the tile's sum of products of columns i and j. -/
theorem pay5_apply (x : Vec Ideal S1024x1280 .f32) (xo : Vec Ideal S1x1280x1280 .f32) (i j : Fin 1280) :
    k0_pay5 (F := Ideal) x xo (ix3 (0 : Fin 1) i j) = xo (ix3 (0 : Fin 1) i j) + ∑ r : Fin 1024, x (ix2 r i) * x (ix2 r j) := by
  unfold k0_pay5
  rw [shapeCast_ab_1ab_apply]
  show shapeCast S1280x1280 xo Facts₀.shapeCasts_S1x1280x1280_S1280x1280 (ix2 i j) + _ = _
  rw [shapeCast_1ab_ab_apply]
  refine congrArg (xo (ix3 (0 : Fin 1) i j) + ·) ?_
  exact Cert.Lib.MatmulCols.matmul_zero_cols Facts₀.dot_S1024x1280_S1024x1280_S1280x1280_0_0_1_1_n_n_wf none _ _ i j

/-- The column-sum payload at j: the carried entry plus the tile's sum of column j. -/
theorem pay6_apply (x : Vec Ideal S1024x1280 .f32) (xo : Vec Ideal S1x1x1280 .f32) (j : Fin 1280) :
    k0_pay6 (F := Ideal) x xo (ix3 (0 : Fin 1) (0 : Fin 1) j) = xo (ix3 (0 : Fin 1) (0 : Fin 1) j) + ∑ r : Fin 1024, x (ix2 r j) := by
  unfold k0_pay6
  rw [shapeCast_ab_1ab_apply]
  show shapeCast S1x1280 xo Facts₀.shapeCasts_S1x1x1280_S1x1280 (ix2 (0 : Fin 1) j) + shapeCast S1x1280 _ Facts₀.shapeCasts_S1280_S1x1280 (ix2 (0 : Fin 1) j) = _
  rw [shapeCast_1ab_ab_apply, shapeCast_a_1a_apply, Cert.LibAxisFold.sublaneSum_col]

/-- The maximum of row r of a tile, folded from -inf, and the tile's log-softmax in the kernel's spelling. -/
def tileMax (x : Vec Ideal S1024x1280 .f32) (r : Fin 1024) : EReal :=
  (Finset.univ : Finset (Fin 1280)).fold max (Ideal.ofBits .f32 0xFF800000#32) fun k => x (ix2 r k)
def tileLsm (x : Vec Ideal S1024x1280 .f32) (r : Fin 1024) (j : Fin 1280) : EReal :=
  x (ix2 r j) - (Ideal.log (∑ k : Fin 1280, Ideal.exp (x (ix2 r k) - tileMax x r)) + tileMax x r)

/-- The shifted exponential the kernel sums along a row. -/
theorem shifted_exp_apply (x : Vec Ideal S1024x1280 .f32) (r : Fin 1024) (k : Fin 1280)
    (hφ : FKind.Formats .f32) (hacc : (0xFF800000#32 : BitVec 32) = 0xFF800000#32) :
    Ideal.exp (x (ix2 r k) - broadcastTo S1024x1280
      (shapeCast S1024x1 (multiReduction (F := Ideal) .maximumf [1] S1024 x 0xFF800000#32 Facts₀.reduces_S1024x1280_S1024 hφ hacc)
        Facts₀.shapeCasts_S1024_S1024x1) Facts₀.broadcasts_S1024x1_S1024x1280 (ix2 r k))
      = Ideal.exp (x (ix2 r k) - tileMax x r) := by
  rw [Cert.LibColBroadcast.broadcastTo_a1_ab_apply, Cert.LibColumnCast.shapeCast_a_a1_apply, Cert.LibRowMax.laneMax_row]
  rfl

/-- The log-softmax payload at (r, j). -/
theorem pay7_apply (x : Vec Ideal S1024x1280 .f32) (r : Fin 1024) (j : Fin 1280) :
    k0_pay7 (F := Ideal) x (ix2 r j) = tileLsm x r j := by
  unfold k0_pay7
  show x (ix2 r j) - broadcastTo S1024x1280 _ Facts₀.broadcasts_S1024x1_S1024x1280 (ix2 r j) = _
  rw [Cert.LibColBroadcast.broadcastTo_a1_ab_apply]
  show x (ix2 r j) - (Ideal.log (shapeCast S1024x1 _ Facts₀.shapeCasts_S1024_S1024x1 (ix2 r (0 : Fin 1)))
    + shapeCast S1024x1 _ Facts₀.shapeCasts_S1024_S1024x1 (ix2 r (0 : Fin 1))) = _
  rw [Cert.LibColumnCast.shapeCast_a_a1_apply, Cert.LibColumnCast.shapeCast_a_a1_apply, Cert.LibAxisFold.laneSum_row,
    Cert.LibRowMax.laneMax_row]
  unfold tileLsm
  refine congrArg (x (ix2 r j) - ·) ?_
  refine congrArg (· + tileMax x r) ?_
  refine congrArg Ideal.log (Finset.sum_congr rfl fun k _ => ?_)
  exact shifted_exp_apply x r k _ _

/-- 1280 · exp of the log-softmax at (r, j). -/
theorem pay8_apply (x : Vec Ideal S1024x1280 .f32) (r : Fin 1024) (j : Fin 1280) :
    k0_pay8 (F := Ideal) x (ix2 r j) = Ideal.ofBits .f32 0x44A00000#32 * Ideal.exp (tileLsm x r j) := by
  unfold k0_pay8
  show Ideal.ofBits .f32 0x44A00000#32 * Ideal.exp (k0_pay7 (F := Ideal) x (ix2 r j)) = _
  rw [pay7_apply]

end Cert.KernelIdeal.Acc

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.AccFold.lean ====
/-
  Two facts about sums in a commutative additive monoid (no cancellation is used, so they hold of the extended reals),
  for an accumulator that is restarted at every multiple of 8 and otherwise adds the current term to what the step
  before left:

  * after step n it holds the sum of the terms of the current stretch, from the last multiple of 8 up to n
    (`acc_fold`), so after the last step of a stretch it holds that stretch's eight terms (`acc_fold_last`);
  * when the term of step t is itself the sum of a function over the 1024 consecutive positions 1024·t, …, the two
    stretches' totals add up to the sum over all 16384 = 2 · 8 · 1024 positions (`sum_tiles`).
-/
import Mathlib.Algebra.BigOperators.Fin
import Mathlib.Algebra.BigOperators.Intervals
import proofs.«135353_j33835752358351_2_alg».proof.Proof.LibSumChunks

open scoped BigOperators

namespace Cert.Loss.Fold

/-- The restarted accumulator after step `n`: the terms from the last multiple of 8 up to `n`. -/
theorem acc_fold {M : Type*} [AddCommMonoid M] (N : ℕ) (s : (n : ℕ) → n < N → M) (g : ℕ → M)
    (hA : ∀ n (hn : n < N), n % 8 = 0 → s n hn = g n)
    (hB : ∀ n (hn : n < N), ¬ n % 8 = 0 → s n hn = s (n - 1) (Nat.lt_of_le_of_lt (Nat.sub_le _ _) hn) + g n) :
    ∀ n (hn : n < N), s n hn = ∑ k ∈ Finset.range (n % 8 + 1), g (n - n % 8 + k) := by
  intro n
  induction n with
  | zero =>
    intro hn
    rw [hA 0 hn rfl]
    simp
  | succ n ih =>
    intro hn
    by_cases h0 : (n + 1) % 8 = 0
    · rw [hA (n + 1) hn h0, h0]
      simp
    · rw [hB (n + 1) hn h0]
      have hn' : n < N := Nat.lt_of_succ_lt hn
      have e : s (n + 1 - 1) (Nat.lt_of_le_of_lt (Nat.sub_le _ _) hn) = s n hn' := rfl
      rw [e, ih hn']
      have e1 : (n + 1) % 8 + 1 = (n % 8 + 1) + 1 := by omega
      have e2 : n + 1 - (n + 1) % 8 = n - n % 8 := by omega
      have e3 : n - n % 8 + (n % 8 + 1) = n + 1 := by omega
      rw [e1, e2, Finset.sum_range_succ (fun k => g (n - n % 8 + k)) (n % 8 + 1), e3]

/-- After the last step of a stretch (a step that is 7 modulo 8): the stretch's eight terms. -/
theorem acc_fold_last {M : Type*} [AddCommMonoid M] (N : ℕ) (s : (n : ℕ) → n < N → M) (g : ℕ → M)
    (hA : ∀ n (hn : n < N), n % 8 = 0 → s n hn = g n)
    (hB : ∀ n (hn : n < N), ¬ n % 8 = 0 → s n hn = s (n - 1) (Nat.lt_of_le_of_lt (Nat.sub_le _ _) hn) + g n)
    (n : ℕ) (hn : n < N) (h7 : n % 8 = 7) : s n hn = ∑ k ∈ Finset.range 8, g (n - 7 + k) := by
  rw [acc_fold N s g hA hB n hn, h7]

/-- Two stretches of eight tiles of 1024 positions are all 16384 positions. -/
theorem sum_tiles {M : Type*} [AddCommMonoid M] (f : ℕ → M) :
    ∑ h : Fin 2, ∑ k ∈ Finset.range 8, ∑ r : Fin 1024, f (1024 * (8 * h.val + k) + r.val) = ∑ b : Fin 16384, f b.val := by
  rw [Cert.Lib.SumChunks.sum_chunks 16 1024 rfl (fun b : Fin 16384 => f b.val)]
  rw [Cert.Lib.SumChunks.sum_chunks 2 8 rfl (fun c : Fin 16 => ∑ j : Fin 1024, f (j.val + 1024 * c.val))]
  refine Finset.sum_congr rfl fun h _ => ?_
  rw [Finset.sum_range]
  refine Finset.sum_congr rfl fun k _ => ?_
  refine Finset.sum_congr rfl fun r _ => ?_
  exact congrArg f (by show 1024 * (8 * h.val + k.val) + r.val = r.val + 1024 * (k.val + 8 * h.val); omega)

end Cert.Loss.Fold
-- ==== Proof.LibSum12.lean ====
/-
  A float `vector.multi_reduction <add>` over axes 1 and 2 of a [1, n, m] array into [1], read at the ideal instance,
  is the double sum over the two reduced coordinates; and the index set of a rank-3 shape is the product of its three
  coordinate ranges.
-/
import Idealize.ShloMosaic.PureOps.Ideal.Laws
import Idealize.ShloMosaic.Lib.ValueIdx

noncomputable section

namespace Cert.LibSum12

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a leading unit axis the outer sum has one term. -/
theorem sum_idx3_unit {M : Type*} [AddCommMonoid M] {n m : Nat} (f : (⟨3, ![1, n, m]⟩ : Shape).Idx → M) :
    ∑ i, f i = ∑ p : Fin n, ∑ q : Fin m, f (ix3 0 p q) := by
  rw [sum_idx3, Fin.sum_univ_one]

/-- The reduction of a [1, n, m] array over its axes 1 and 2 into [1], at its one result index, is the double sum. -/
theorem sum12 {n m : ℕ} {φ : FTy} (v : FVec Ideal ⟨3, ![1, n, m]⟩ φ) (acc : BitVec φ.bits)
    (h : (⟨3, ![1, n, m]⟩ : Shape).Reduces [1, 2] ⟨1, ![1]⟩) (hφ : FKind.Formats φ)
    (hacc : acc = FKind.add.neutral φ hφ) (j : (⟨1, ![1]⟩ : Shape).Idx) :
    multiReduction (F := Ideal) .add [1, 2] ⟨1, ![1]⟩ v acc h hφ hacc j = ∑ p : Fin n, ∑ q : Fin m, v (ix3 0 p q) := by
  rw [Ideal.multiReduction_add_total v acc h (fun b => by fin_cases b; rfl) hφ hacc j]
  exact sum_idx3_unit v

/-- The same at f32 with the zero word as the accumulator, its neutrality stated as the printed programs carry it. -/
theorem sum12_f32 {n m : ℕ} (v : FVec Ideal ⟨3, ![1, n, m]⟩ .f32)
    (h : (⟨3, ![1, n, m]⟩ : Shape).Reduces [1, 2] ⟨1, ![1]⟩) (hφ : FKind.Formats .f32)
    (hacc : (0x00000000#32 : BitVec 32) = 0x00000000#32) (j : (⟨1, ![1]⟩ : Shape).Idx) :
    multiReduction (F := Ideal) .add [1, 2] ⟨1, ![1]⟩ v 0x00000000#32 h hφ hacc j = ∑ p : Fin n, ∑ q : Fin m, v (ix3 0 p q) :=
  sum12 v _ h hφ hacc j

end Cert.LibSum12

end
-- ==== Proof.KlPayload.lean ====
/-
  The first kernel's accumulated payload at the ideal instance: what the [1, 1, 1] accumulator holds after one step is
  what it held plus the sum, over the rows and columns of the step's [1024, 1280] block, of the product of the first
  operand with the second operand less one.
-/
import proofs.«135353_j33835752358351_2_alg».proof.Proof.Gen.KernelIdeal.Skeleton
import proofs.«135353_j33835752358351_2_alg».proof.Proof.LibSum12
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Acc

open Idealize.ShloMosaic Idealize.ShloMosaic.ValueIdx
open Cert.KernelIdeal Cert.KernelIdeal.Gen Cert.LibSum12

variable [Cert.KernelIdeal.Facts]

/-- A [1, 1, 1] accumulator cast to [1, 1], added to the splat of the scalar extracted at (0, 0, 0) from a one-element
    vector cast to [1, 1, 1], and cast back: at any index, the accumulator there plus that vector's entry. -/
theorem acc_apply (xo : S1x1x1.Idx → EReal) (M : S1.Idx → EReal) (h1 : S1x1x1.ShapeCasts S1x1)
    (h2 : S1x1.ShapeCasts S1x1x1) (hc : S1.ShapeCasts S1x1x1)
    (hp : ∀ a, (![0, 0, 0] : Fin 3 → Nat) a < S1x1x1.size a) (y : S1x1x1.Idx) :
    shapeCast S1x1x1 (addf (F := Ideal) (φ := .f32) (shapeCast S1x1 xo h1)
        (broadcast S1x1 (extractAt ![0, 0, 0] (shapeCast S1x1x1 M hc) hp))) h2 y
      = xo y + M (Shape.reshapeEquiv hc (fun a => ⟨(![0, 0, 0] : Fin 3 → Nat) a, hp a⟩)) := by
  show xo (Shape.reshapeEquiv h1 (Shape.reshapeEquiv h2 y)) + _ = _
  rw [Shape.reshapeEquiv_reshapeEquiv, Shape.reshapeEquiv_self]
  rfl

/-- The accumulated payload at an index. -/
theorem pay1_apply (v30 v33 : FVec Ideal S1024x1280 .f32) (xo : Vec Ideal S1x1x1 .f32) (y : S1x1x1.Idx) :
    k0_pay1 (F := Ideal) v30 v33 xo y
      = xo y + ∑ r : Fin 1024, ∑ j : Fin 1280, v30 (ix2 r j) * (v33 (ix2 r j) - Ideal.ofBits .f32 0x3F800000#32) := by
  unfold k0_pay1
  dsimp only
  rw [acc_apply]
  rw [sum12_f32]
  simp only [shapeCast_ab_1ab_apply, mulf_apply, subf_apply, broadcast_apply]
  exact congrArg (xo y + ·) (Finset.sum_congr rfl fun r _ => Finset.sum_congr rfl fun j _ => rfl)

end Cert.KernelIdeal.Acc

end
-- ==== Proof.AccArrays.lean ====
/-
  What the first kernel leaves in its three result arrays, at the ideal instance. The grid has two stretches of eight
  points; point t reads rows 1024·t … 1024·t + 1023 of the feature matrix; the accumulators' blocks are indexed by the
  stretch alone, restarted at a stretch's first point and written back after its last. So entry (h, i, j) of the first
  result is the sum over the eight tiles of stretch h of the tile's sum of products of columns i and j, entry (h, 0, j)
  of the second the same for column sums, and entry (h, 0, 0) of the third the same for the tile's KL statistic.
-/
import proofs.«135353_j33835752358351_2_alg».proof.Proof.Gen.KernelIdeal.Frame
import proofs.«135353_j33835752358351_2_alg».proof.Proof.AccBody
import proofs.«135353_j33835752358351_2_alg».proof.Proof.AccTile
import proofs.«135353_j33835752358351_2_alg».proof.Proof.AccFold
import proofs.«135353_j33835752358351_2_alg».proof.Proof.KlPayload
import Idealize.ShloMosaic.Lib.Pipeline.Value
import Idealize.ShloMosaic.Lib.ValueIdx

set_option maxRecDepth 16384

noncomputable section

namespace Cert.KernelIdeal.Acc

open Cert.KernelIdeal Cert.KernelIdeal.Gen
open Idealize.ShloMosaic Idealize.ShloMosaic.TcCoe Idealize.SL.Sem Idealize.ShloMosaic.ValueIdx
open Idealize.ShloMosaic.Pipeline (Dat)

variable [Cert.KernelIdeal.Facts]
open Facts₀ Facts

variable (V : (c : Dev nD) → (b : Ref sig .tc) → Buf (Elt Ideal) ((c : Thread nD τ).loc b)) (c : Dev nD)

theorem N16 : cfg0.N = 16 := N_0

/-- The tile of point `t` read at (r, k): row 1024·t + r of the feature matrix as the region finds it. -/
theorem tile_read (t : Fin cfg0.N) (r : Fin 1024) (k : Fin 1280) (hb : 1024 * t.val + r.val < 16384) :
    (iblk0 V c 0 t : Vec Ideal S1024x1280 .f32) (ix2 r k)
      = (V c main_arg3 : S16384x1280.Idx → EReal) (ix2 (⟨1024 * t.val + r.val, hb⟩ : Fin 16384) k) := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_arg3 _ = V c main_arg3 _
  refine congrArg (V c main_arg3) ?_
  funext a
  apply Fin.ext
  match a with
  | ⟨0, _⟩ => show win0_0.index t 0 * 1024 + 1 * r.val = 1024 * t.val + r.val; rw [hi.1]; omega
  | ⟨1, _⟩ => show win0_0.index t 1 * 1280 + 1 * k.val = k.val; rw [hi.2]; omega

/-! ## The Gram accumulator -/

/-- The zero blocks the restart stores. -/
theorem pay2_zero (i j : Fin 1280) : k0_pay2 (F := Ideal) (ix3 (0 : Fin 1) i j) = 0 := by
  unfold k0_pay2
  rw [shapeCast_ab_1ab_apply]
  exact Ideal.ofBits_zero_f32
theorem pay3_zero (j : Fin 1280) : k0_pay3 (F := Ideal) (ix3 (0 : Fin 1) (0 : Fin 1) j) = 0 := by
  unfold k0_pay3
  rw [shapeCast_ab_1ab_apply]
  exact Ideal.ofBits_zero_f32
theorem pay4_zero : k0_pay4 (F := Ideal) (ix3 (0 : Fin 1) (0 : Fin 1) (0 : Fin 1)) = 0 := by
  unfold k0_pay4
  rw [shapeCast_ab_1ab_apply]
  exact Ideal.ofBits_zero_f32

/-- The tile point `t` reads. -/
def tile (t : Fin cfg0.N) : Vec Ideal S1024x1280 .f32 := iblk0 V c 0 t

/-- Tile `t`'s contribution to the Gram entry (i, j): the sum over its rows of the product of columns i and j. -/
def g1 (i j : Fin 1280) (t : ℕ) : EReal :=
  if ht : t < cfg0.N then ∑ r : Fin 1024, tile V c ⟨t, ht⟩ (ix2 r i) * tile V c ⟨t, ht⟩ (ix2 r j) else 0

theorem s1_A (i j : Fin 1280) (n : ℕ) (hn : n < cfg0.N) (h0 : n % 8 = 0) :
    (outsAt0 V c n hn).1 (ix3 (0 : Fin 1) i j) = g1 V c i j n := by
  have e := outsAt0_A V c ⟨n, hn⟩ h0
  have e1 : (outsAt0 V c n hn).1 = _ := congrArg Prod.fst e
  rw [e1]
  dsimp only
  rw [outA1, pay5_apply, pay2_zero, zero_add]
  unfold g1
  rw [dif_pos hn]
  rfl

theorem s1_B (i j : Fin 1280) (n : ℕ) (hn : n < cfg0.N) (h0 : ¬ n % 8 = 0) :
    (outsAt0 V c n hn).1 (ix3 (0 : Fin 1) i j)
      = (outsAt0 V c (n - 1) (Nat.lt_of_le_of_lt (Nat.sub_le _ _) hn)).1 (ix3 (0 : Fin 1) i j) + g1 V c i j n := by
  have e := outsAt0_B V c ⟨n, hn⟩ h0
  have e1 : (outsAt0 V c n hn).1 = _ := congrArg Prod.fst e
  rw [e1]
  dsimp only
  rw [outB1, pay5_apply]
  unfold g1
  rw [dif_pos hn]
  rfl

/-- The accumulators' block indices over the grid: the stretch on the leading axis. -/
theorem idx1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

/-- Entry (h, i, j) of the first result array after the run: the eight tiles of stretch h. -/
def G1c (h : Fin 2) (i j : Fin 1280) : EReal := ∑ k ∈ Finset.range 8, g1 V c i j (8 * h.val + k)
def G1 : S2x1280x1280.Idx → EReal := fun idx => G1c V c (idx 0) (idx 1) (idx 2)

theorem flushed1_eq (t : Fin cfg0.N) (hf : (cfg0.win 1).flush t = true) :
    (dat0 V c).flushed 1 t = ((cfg0.win 1).blk t).view.read (Elt Ideal) (G1 V c) := by
  have h7 : t.val % 8 = 7 := (flush0_1 t).mp hf
  have hN : cfg0.N = 16 := N_0
  obtain ⟨e0, e1, e2⟩ := idx1 t
  show (cfg0.win 1).cut (grid0.coords t) ((dat0 V c).after 1 t) = _
  rw [after0_1]
  refine funext fun (y : S1x1280x1280.Idx) => ?_
  obtain ⟨u, i, j, rfl⟩ : ∃ (u : Fin 1) (i j : Fin 1280), y = ix3 u i j := ⟨y 0, y 1, y 2, eq_ix3 y⟩
  obtain rfl : u = 0 := Subsingleton.elim _ _
  have hlt : t.val / 8 < 2 := by have := t.isLt; omega
  have hemb : ((cfg0.win 1).blk t).view.emb (ix3 (0 : Fin 1) i j) = ix3 (⟨t.val / 8, hlt⟩ : Fin 2) i j := by
    funext a
    apply Fin.ext
    match a with
    | ⟨0, _⟩ => show win0_1.index t 0 * 1 + 1 * 0 = t.val / 8; rw [e0]; omega
    | ⟨1, _⟩ => show win0_1.index t 1 * 1280 + 1 * i.val = i.val; rw [e1]; omega
    | ⟨2, _⟩ => show win0_1.index t 2 * 1280 + 1 * j.val = j.val; rw [e2]; omega
  show (outsAt0 V c t.val t.isLt).1 (ix3 (0 : Fin 1) i j) = G1 V c (((cfg0.win 1).blk t).view.emb (ix3 (0 : Fin 1) i j))
  rw [hemb]
  show _ = ∑ k ∈ Finset.range 8, g1 V c i j (8 * (t.val / 8) + k)
  refine (Cert.Loss.Fold.acc_fold_last cfg0.N (fun n hn => (outsAt0 V c n hn).1 (ix3 (0 : Fin 1) i j)) (g1 V c i j)
    (s1_A V c i j) (s1_B V c i j) t.val t.isLt h7).trans ?_
  have e : t.val - 7 = 8 * (t.val / 8) := by omega
  rw [e]

theorem mem_blk1 (t : Fin cfg0.N) (i : S2x1280x1280.Idx) :
    i ∈ ((cfg0.win 1).blk t).view.set ↔ ∀ a : Fin 3, win0_1.index t a * S1x1280x1280.size a ≤ (i a).val ∧ (i a).val < win0_1.index t a * S1x1280x1280.size a + S1x1280x1280.size a := by
  show i ∈ ((View.whole main_v0_0).slice (win0_1.rect t)).set ↔ _
  rw [View.set_slice_whole, Rect.mem_set_unit]
  exact Iff.rfl

theorem cover1 (i : S2x1280x1280.Idx) : ∃ t : Fin cfg0.N, (cfg0.win 1).flush t = true ∧ i ∈ ((cfg0.win 1).blk t).view.set := by
  have h0 : (i 0).val < 2 := (i 0).isLt
  have h1 : (i 1).val < 1280 := (i 1).isLt
  have h2 : (i 2).val < 1280 := (i 2).isLt
  have hN : cfg0.N = 16 := N_0
  have ht : 8 * (i 0).val + 7 < cfg0.N := by omega
  obtain ⟨e0, e1, e2⟩ := idx1 ⟨8 * (i 0).val + 7, ht⟩
  refine ⟨⟨8 * (i 0).val + 7, ht⟩, (flush0_1 _).mpr (by show (8 * (i 0).val + 7) % 8 = 7; omega), ?_⟩
  rw [mem_blk1]
  intro a
  match a with
  | ⟨0, _⟩ => show win0_1.index ⟨8 * (i 0).val + 7, ht⟩ 0 * 1 ≤ (i 0).val ∧ (i 0).val < win0_1.index ⟨8 * (i 0).val + 7, ht⟩ 0 * 1 + 1
              rw [e0]; show (8 * (i 0).val + 7) / 8 * 1 ≤ (i 0).val ∧ (i 0).val < (8 * (i 0).val + 7) / 8 * 1 + 1; omega
  | ⟨1, _⟩ => show win0_1.index ⟨8 * (i 0).val + 7, ht⟩ 1 * 1280 ≤ (i 1).val ∧ (i 1).val < win0_1.index ⟨8 * (i 0).val + 7, ht⟩ 1 * 1280 + 1280
              rw [e1]; omega
  | ⟨2, _⟩ => show win0_1.index ⟨8 * (i 0).val + 7, ht⟩ 2 * 1280 ≤ (i 2).val ∧ (i 2).val < win0_1.index ⟨8 * (i 0).val + 7, ht⟩ 2 * 1280 + 1280
              rw [e2]; omega

/-- The first result array after the run. -/
theorem final1 : (dat0 V c).arrAt 1 cfg0.N = G1 V c :=
  (dat0 V c).arrAt_eq_of_cover 1 (G1 V c) (flushed1_eq V c) (cover1)

/-! ## The column-sum accumulator -/

/-- Tile `t`'s contribution to the column sum j. -/
def g2 (j : Fin 1280) (t : ℕ) : EReal :=
  if ht : t < cfg0.N then ∑ r : Fin 1024, tile V c ⟨t, ht⟩ (ix2 r j) else 0

theorem s2_A (j : Fin 1280) (n : ℕ) (hn : n < cfg0.N) (h0 : n % 8 = 0) :
    (outsAt0 V c n hn).2.1 (ix3 (0 : Fin 1) (0 : Fin 1) j) = g2 V c j n := by
  have e := outsAt0_A V c ⟨n, hn⟩ h0
  have e1 : (outsAt0 V c n hn).2.1 = _ := congrArg (fun p => p.2.1) e
  rw [e1]
  dsimp only
  rw [outA2, pay6_apply, pay3_zero, zero_add]
  unfold g2
  rw [dif_pos hn]
  rfl

theorem s2_B (j : Fin 1280) (n : ℕ) (hn : n < cfg0.N) (h0 : ¬ n % 8 = 0) :
    (outsAt0 V c n hn).2.1 (ix3 (0 : Fin 1) (0 : Fin 1) j)
      = (outsAt0 V c (n - 1) (Nat.lt_of_le_of_lt (Nat.sub_le _ _) hn)).2.1 (ix3 (0 : Fin 1) (0 : Fin 1) j) + g2 V c j n := by
  have e := outsAt0_B V c ⟨n, hn⟩ h0
  have e1 : (outsAt0 V c n hn).2.1 = _ := congrArg (fun p => p.2.1) e
  rw [e1]
  dsimp only
  rw [outB2, pay6_apply]
  unfold g2
  rw [dif_pos hn]
  rfl

theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- Entry (h, 0, j) of the second result array after the run. -/
def G2c (h : Fin 2) (j : Fin 1280) : EReal := ∑ k ∈ Finset.range 8, g2 V c j (8 * h.val + k)
def G2 : S2x1x1280.Idx → EReal := fun idx => G2c V c (idx 0) (idx 2)

theorem flushed2_eq (t : Fin cfg0.N) (hf : (cfg0.win 2).flush t = true) :
    (dat0 V c).flushed 2 t = ((cfg0.win 2).blk t).view.read (Elt Ideal) (G2 V c) := by
  have h7 : t.val % 8 = 7 := (flush0_2 t).mp hf
  have hN : cfg0.N = 16 := N_0
  obtain ⟨e0, e1, e2⟩ := idx2 t
  show (cfg0.win 2).cut (grid0.coords t) ((dat0 V c).after 2 t) = _
  rw [after0_2]
  refine funext fun (y : S1x1x1280.Idx) => ?_
  obtain ⟨u, v, j, rfl⟩ : ∃ (u v : Fin 1) (j : Fin 1280), y = ix3 u v j := ⟨y 0, y 1, y 2, eq_ix3 y⟩
  obtain rfl : u = 0 := Subsingleton.elim _ _
  obtain rfl : v = 0 := Subsingleton.elim _ _
  have hlt : t.val / 8 < 2 := by have := t.isLt; omega
  have hemb : ((cfg0.win 2).blk t).view.emb (ix3 (0 : Fin 1) (0 : Fin 1) j) = ix3 (⟨t.val / 8, hlt⟩ : Fin 2) (0 : Fin 1) j := by
    funext a
    apply Fin.ext
    match a with
    | ⟨0, _⟩ => show win0_2.index t 0 * 1 + 1 * 0 = t.val / 8; rw [e0]; omega
    | ⟨1, _⟩ => show win0_2.index t 1 * 1 + 1 * 0 = 0; rw [e1]
    | ⟨2, _⟩ => show win0_2.index t 2 * 1280 + 1 * j.val = j.val; rw [e2]; omega
  show (outsAt0 V c t.val t.isLt).2.1 (ix3 (0 : Fin 1) (0 : Fin 1) j) = G2 V c (((cfg0.win 2).blk t).view.emb (ix3 (0 : Fin 1) (0 : Fin 1) j))
  rw [hemb]
  show _ = ∑ k ∈ Finset.range 8, g2 V c j (8 * (t.val / 8) + k)
  refine (Cert.Loss.Fold.acc_fold_last cfg0.N (fun n hn => (outsAt0 V c n hn).2.1 (ix3 (0 : Fin 1) (0 : Fin 1) j)) (g2 V c j)
    (s2_A V c j) (s2_B V c j) t.val t.isLt h7).trans ?_
  have e : t.val - 7 = 8 * (t.val / 8) := by omega
  rw [e]

theorem mem_blk2 (t : Fin cfg0.N) (i : S2x1x1280.Idx) :
    i ∈ ((cfg0.win 2).blk t).view.set ↔ ∀ a : Fin 3, win0_2.index t a * S1x1x1280.size a ≤ (i a).val ∧ (i a).val < win0_2.index t a * S1x1x1280.size a + S1x1x1280.size a := by
  show i ∈ ((View.whole main_v0_1).slice (win0_2.rect t)).set ↔ _
  rw [View.set_slice_whole, Rect.mem_set_unit]
  exact Iff.rfl

theorem cover2 (i : S2x1x1280.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1280 := (i 2).isLt
  have hN : cfg0.N = 16 := N_0
  have ht : 8 * (i 0).val + 7 < cfg0.N := by omega
  obtain ⟨e0, e1, e2⟩ := idx2 ⟨8 * (i 0).val + 7, ht⟩
  refine ⟨⟨8 * (i 0).val + 7, ht⟩, (flush0_2 _).mpr (by show (8 * (i 0).val + 7) % 8 = 7; omega), ?_⟩
  rw [mem_blk2]
  intro a
  match a with
  | ⟨0, _⟩ => show win0_2.index ⟨8 * (i 0).val + 7, ht⟩ 0 * 1 ≤ (i 0).val ∧ (i 0).val < win0_2.index ⟨8 * (i 0).val + 7, ht⟩ 0 * 1 + 1
              rw [e0]; show (8 * (i 0).val + 7) / 8 * 1 ≤ (i 0).val ∧ (i 0).val < (8 * (i 0).val + 7) / 8 * 1 + 1; omega
  | ⟨1, _⟩ => show win0_2.index ⟨8 * (i 0).val + 7, ht⟩ 1 * 1 ≤ (i 1).val ∧ (i 1).val < win0_2.index ⟨8 * (i 0).val + 7, ht⟩ 1 * 1 + 1
              rw [e1]; omega
  | ⟨2, _⟩ => show win0_2.index ⟨8 * (i 0).val + 7, ht⟩ 2 * 1280 ≤ (i 2).val ∧ (i 2).val < win0_2.index ⟨8 * (i 0).val + 7, ht⟩ 2 * 1280 + 1280
              rw [e2]; omega

/-- The second result array after the run. -/
theorem final2 : (dat0 V c).arrAt 2 cfg0.N = G2 V c :=
  (dat0 V c).arrAt_eq_of_cover 2 (G2 V c) (flushed2_eq V c) (cover2)

/-! ## The KL accumulator -/

/-- Tile `t`'s KL statistic: the sum over its entries of L · (1280 · exp L - 1), L the tile's log-softmax. -/
def g3 (t : ℕ) : EReal :=
  if ht : t < cfg0.N then ∑ r : Fin 1024, ∑ j : Fin 1280,
    tileLsm (tile V c ⟨t, ht⟩) r j * (Ideal.ofBits .f32 0x44A00000#32 * Ideal.exp (tileLsm (tile V c ⟨t, ht⟩) r j) - Ideal.ofBits .f32 0x3F800000#32) else 0

theorem kl_terms (x : Vec Ideal S1024x1280 .f32) :
    (∑ r : Fin 1024, ∑ j : Fin 1280, k0_pay7 (F := Ideal) x (ix2 r j) * (k0_pay8 (F := Ideal) x (ix2 r j) - Ideal.ofBits .f32 0x3F800000#32))
      = ∑ r : Fin 1024, ∑ j : Fin 1280, tileLsm x r j * (Ideal.ofBits .f32 0x44A00000#32 * Ideal.exp (tileLsm x r j) - Ideal.ofBits .f32 0x3F800000#32) :=
  Finset.sum_congr rfl fun r _ => Finset.sum_congr rfl fun j _ => by rw [pay7_apply, pay8_apply]

theorem s3_A (n : ℕ) (hn : n < cfg0.N) (h0 : n % 8 = 0) :
    (outsAt0 V c n hn).2.2 (ix3 (0 : Fin 1) (0 : Fin 1) (0 : Fin 1)) = g3 V c n := by
  have e := outsAt0_A V c ⟨n, hn⟩ h0
  have e1 : (outsAt0 V c n hn).2.2 = _ := congrArg (fun p => p.2.2) e
  rw [e1]
  dsimp only
  rw [outA3, pay1_apply, pay4_zero, zero_add, kl_terms]
  unfold g3
  rw [dif_pos hn]
  rfl

theorem s3_B (n : ℕ) (hn : n < cfg0.N) (h0 : ¬ n % 8 = 0) :
    (outsAt0 V c n hn).2.2 (ix3 (0 : Fin 1) (0 : Fin 1) (0 : Fin 1))
      = (outsAt0 V c (n - 1) (Nat.lt_of_le_of_lt (Nat.sub_le _ _) hn)).2.2 (ix3 (0 : Fin 1) (0 : Fin 1) (0 : Fin 1)) + g3 V c n := by
  have e := outsAt0_B V c ⟨n, hn⟩ h0
  have e1 : (outsAt0 V c n hn).2.2 = _ := congrArg (fun p => p.2.2) e
  rw [e1]
  dsimp only
  rw [outB3, pay1_apply, kl_terms]
  unfold g3
  rw [dif_pos hn]
  rfl

theorem idx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- Entry (h, 0, 0) of the third result array after the run. -/
def G3c (h : Fin 2) : EReal := ∑ k ∈ Finset.range 8, g3 V c (8 * h.val + k)
def G3 : S2x1x1.Idx → EReal := fun idx => G3c V c (idx 0)

theorem flushed3_eq (t : Fin cfg0.N) (hf : (cfg0.win 3).flush t = true) :
    (dat0 V c).flushed 3 t = ((cfg0.win 3).blk t).view.read (Elt Ideal) (G3 V c) := by
  have h7 : t.val % 8 = 7 := (flush0_3 t).mp hf
  have hN : cfg0.N = 16 := N_0
  obtain ⟨e0, e1, e2⟩ := idx3 t
  show (cfg0.win 3).cut (grid0.coords t) ((dat0 V c).after 3 t) = _
  rw [after0_3]
  refine funext fun (y : S1x1x1.Idx) => ?_
  obtain ⟨u, v, w, rfl⟩ : ∃ (u v w : Fin 1), y = ix3 u v w := ⟨y 0, y 1, y 2, eq_ix3 y⟩
  obtain rfl : u = 0 := Subsingleton.elim _ _
  obtain rfl : v = 0 := Subsingleton.elim _ _
  obtain rfl : w = 0 := Subsingleton.elim _ _
  have hlt : t.val / 8 < 2 := by have := t.isLt; omega
  have hemb : ((cfg0.win 3).blk t).view.emb (ix3 (0 : Fin 1) (0 : Fin 1) (0 : Fin 1)) = ix3 (⟨t.val / 8, hlt⟩ : Fin 2) (0 : Fin 1) (0 : Fin 1) := by
    funext a
    apply Fin.ext
    match a with
    | ⟨0, _⟩ => show win0_3.index t 0 * 1 + 1 * 0 = t.val / 8; rw [e0]; omega
    | ⟨1, _⟩ => show win0_3.index t 1 * 1 + 1 * 0 = 0; rw [e1]
    | ⟨2, _⟩ => show win0_3.index t 2 * 1 + 1 * 0 = 0; rw [e2]
  show (outsAt0 V c t.val t.isLt).2.2 (ix3 (0 : Fin 1) (0 : Fin 1) (0 : Fin 1)) = G3 V c (((cfg0.win 3).blk t).view.emb (ix3 (0 : Fin 1) (0 : Fin 1) (0 : Fin 1)))
  rw [hemb]
  show _ = ∑ k ∈ Finset.range 8, g3 V c (8 * (t.val / 8) + k)
  refine (Cert.Loss.Fold.acc_fold_last cfg0.N (fun n hn => (outsAt0 V c n hn).2.2 (ix3 (0 : Fin 1) (0 : Fin 1) (0 : Fin 1))) (g3 V c)
    (s3_A V c) (s3_B V c) t.val t.isLt h7).trans ?_
  have e : t.val - 7 = 8 * (t.val / 8) := by omega
  rw [e]

theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0_2).slice (win0_3.rect t)).set ↔ _
  rw [View.set_slice_whole, Rect.mem_set_unit]
  exact Iff.rfl

theorem cover3 (i : S2x1x1.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have hN : cfg0.N = 16 := N_0
  have ht : 8 * (i 0).val + 7 < cfg0.N := by omega
  obtain ⟨e0, e1, e2⟩ := idx3 ⟨8 * (i 0).val + 7, ht⟩
  refine ⟨⟨8 * (i 0).val + 7, ht⟩, (flush0_3 _).mpr (by show (8 * (i 0).val + 7) % 8 = 7; omega), ?_⟩
  rw [mem_blk3]
  intro a
  match a with
  | ⟨0, _⟩ => show win0_3.index ⟨8 * (i 0).val + 7, ht⟩ 0 * 1 ≤ (i 0).val ∧ (i 0).val < win0_3.index ⟨8 * (i 0).val + 7, ht⟩ 0 * 1 + 1
              rw [e0]; show (8 * (i 0).val + 7) / 8 * 1 ≤ (i 0).val ∧ (i 0).val < (8 * (i 0).val + 7) / 8 * 1 + 1; omega
  | ⟨1, _⟩ => show win0_3.index ⟨8 * (i 0).val + 7, ht⟩ 1 * 1 ≤ (i 1).val ∧ (i 1).val < win0_3.index ⟨8 * (i 0).val + 7, ht⟩ 1 * 1 + 1
              rw [e1]; omega
  | ⟨2, _⟩ => show win0_3.index ⟨8 * (i 0).val + 7, ht⟩ 2 * 1 ≤ (i 2).val ∧ (i 2).val < win0_3.index ⟨8 * (i 0).val + 7, ht⟩ 2 * 1 + 1
              rw [e2]; omega

/-- The third result array after the run. -/
theorem final3 : (dat0 V c).arrAt 3 cfg0.N = G3 V c :=
  (dat0 V c).arrAt_eq_of_cover 3 (G3 V c) (flushed3_eq V c) (cover3)

end Cert.KernelIdeal.Acc

end
-- ==== Proof.TilesSum.lean ====
/-
  Sixteen tiles of 1024 consecutive positions, taken as two stretches of eight, are all 16384 positions: if the term
  of tile t is the sum of a function over positions 1024·t, …, 1024·t + 1023, the two stretches' totals add up to the
  sum of the function over every position (in any commutative additive monoid).
-/
import proofs.«135353_j33835752358351_2_alg».proof.Proof.AccFold

open scoped BigOperators

namespace Cert.Loss.Fold

theorem tiles_sum {M : Type*} [AddCommMonoid M] (g : ℕ → M) (f : Fin 16384 → M)
    (hg : ∀ (t : ℕ) (ht : t < 16), g t = ∑ r : Fin 1024, f ⟨1024 * t + r.val, by have := r.isLt; omega⟩) :
    ∑ h : Fin 2, ∑ k ∈ Finset.range 8, g (8 * h.val + k) = ∑ b : Fin 16384, f b := by
  have key := sum_tiles (fun b : ℕ => if hb : b < 16384 then f ⟨b, hb⟩ else 0)
  have rhs : (∑ b : Fin 16384, (fun b : ℕ => if hb : b < 16384 then f ⟨b, hb⟩ else 0) b.val) = ∑ b : Fin 16384, f b :=
    Finset.sum_congr rfl fun b _ => by
      show (if hb : b.val < 16384 then f ⟨b.val, hb⟩ else 0) = f b
      rw [dif_pos b.isLt]
  rw [← rhs, ← key]
  refine Finset.sum_congr rfl fun h _ => Finset.sum_congr rfl fun k hk => ?_
  have hk8 : k < 8 := Finset.mem_range.mp hk
  have hh : h.val < 2 := h.isLt
  rw [hg (8 * h.val + k) (by omega)]
  refine Finset.sum_congr rfl fun r _ => ?_
  have hr : r.val < 1024 := r.isLt
  show f ⟨1024 * (8 * h.val + k) + r.val, _⟩ = (if hb : 1024 * (8 * h.val + k) + r.val < 16384 then f ⟨1024 * (8 * h.val + k) + r.val, hb⟩ else 0)
  rw [dif_pos (by omega)]

end Cert.Loss.Fold
-- ==== Proof.AccSpec.lean ====
/-
  The first kernel's three result arrays, summed over the two stretches as the host does next, are the feature
  matrix's Gram matrix, its column sums, and the KL statistic's numerator: point t reads rows 1024·t … 1024·t + 1023,
  so the sixteen tiles are all 16384 rows, and a tile's log-softmax is the matrix's row-wise log-softmax on its rows.
-/
import proofs.«135353_j33835752358351_2_alg».proof.Proof.AccArrays
import proofs.«135353_j33835752358351_2_alg».proof.Proof.TilesSum
import proofs.«135353_j33835752358351_2_alg».proof.Proof.Spec

set_option maxRecDepth 16384

noncomputable section

namespace Cert.KernelIdeal.Acc

open Cert.KernelIdeal Cert.KernelIdeal.Gen Cert.Loss
open Idealize.ShloMosaic Idealize.ShloMosaic.TcCoe Idealize.SL.Sem Idealize.ShloMosaic.ValueIdx

variable [Cert.KernelIdeal.Facts]
open Facts₀ Facts

variable (V : (c : Dev nD) → (b : Ref sig .tc) → Buf (Elt Ideal) ((c : Thread nD τ).loc b)) (c : Dev nD)

/-- The feature matrix as the first kernel finds it. -/
abbrev featA : SF.Idx → EReal := (V c main_arg3 : S16384x1280.Idx → EReal)

theorem tile_at (t : ℕ) (ht : t < cfg0.N) (r : Fin 1024) (k : Fin 1280) (hb : 1024 * t + r.val < 16384) :
    tile V c ⟨t, ht⟩ (ix2 r k) = featA V c (ix2 (⟨1024 * t + r.val, hb⟩ : Fin 16384) k) :=
  tile_read V c ⟨t, ht⟩ r k hb

theorem gram_tiles (i j : Fin 1280) : ∑ h : Fin 2, G1c V c h i j = gram (featA V c) i j := by
  have hN : cfg0.N = 16 := N_0
  unfold G1c gram
  refine Cert.Loss.Fold.tiles_sum (g1 V c i j) (fun b => featA V c (ix2 b i) * featA V c (ix2 b j)) (fun t ht => ?_)
  have ht' : t < cfg0.N := by omega
  unfold g1
  rw [dif_pos ht']
  refine Finset.sum_congr rfl fun r _ => ?_
  have hr : r.val < 1024 := r.isLt
  rw [tile_at V c t ht' r i (by omega), tile_at V c t ht' r j (by omega)]

theorem colsum_tiles (j : Fin 1280) : ∑ h : Fin 2, G2c V c h j = colSum (featA V c) j := by
  have hN : cfg0.N = 16 := N_0
  unfold G2c colSum
  refine Cert.Loss.Fold.tiles_sum (g2 V c j) (fun b => featA V c (ix2 b j)) (fun t ht => ?_)
  have ht' : t < cfg0.N := by omega
  unfold g2
  rw [dif_pos ht']
  refine Finset.sum_congr rfl fun r _ => ?_
  have hr : r.val < 1024 := r.isLt
  rw [tile_at V c t ht' r j (by omega)]

/-- A tile's log-softmax on row r is the matrix's on the row the tile's row r is. -/
theorem tileLsm_eq (x : Vec Ideal S1024x1280 .f32) (A : SF.Idx → EReal) (r : Fin 1024) (b : Fin 16384)
    (hx : ∀ k : Fin 1280, x (ix2 r k) = A (ix2 b k)) (j : Fin 1280) : tileLsm x r j = lsmK A b j := by
  have hm : tileMax x r = rowMax A b := by
    unfold tileMax rowMax negInfW
    exact congrArg (fun f => Finset.fold max (Ideal.ofBits .f32 0xFF800000#32) f (Finset.univ : Finset (Fin 1280))) (funext hx)
  unfold tileLsm lsmK sumExp
  rw [hm, hx j]
  refine congrArg (fun s => A (ix2 b j) - (Ideal.log s + rowMax A b)) ?_
  exact Finset.sum_congr rfl fun k _ => by rw [hx k]

theorem kl_tiles : ∑ h : Fin 2, G3c V c h
    = ∑ b : Fin 16384, ∑ j : Fin 1280, lsmK (featA V c) b j * (cW * Ideal.exp (lsmK (featA V c) b j) - oneW) := by
  have hN : cfg0.N = 16 := N_0
  unfold G3c
  refine Cert.Loss.Fold.tiles_sum (g3 V c)
    (fun b => ∑ j : Fin 1280, lsmK (featA V c) b j * (cW * Ideal.exp (lsmK (featA V c) b j) - oneW)) (fun t ht => ?_)
  have ht' : t < cfg0.N := by omega
  unfold g3
  rw [dif_pos ht']
  refine Finset.sum_congr rfl fun r _ => ?_
  have hr : r.val < 1024 := r.isLt
  refine Finset.sum_congr rfl fun j _ => ?_
  rw [tileLsm_eq (tile V c ⟨t, ht'⟩) (featA V c) r ⟨1024 * t + r.val, by omega⟩ (fun k => tile_at V c t ht' r k (by omega)) j]
  rfl

end Cert.KernelIdeal.Acc

end
-- ==== Proof.HostMid.lean ====
/-
  The kernel program's host operations between its two device calls, read at an index.

  The first device call leaves, per half h of the batch, a Gram matrix G_h, a row of column sums S_h and a KL
  statistic K_h. The host adds the halves (a sum from the zero word over h), divides by the word of 16384, forms the
  outer product of the mean row with itself as a matrix product whose contracted axis has one element, subtracts it
  from the divided Gram matrix, subtracts the identity matrix (the comparison of the two coordinate words, converted
  to a float) and sums the squares over both coordinates: the squared Frobenius distance from the identity of the
  matrix with entries  (sum_h G_h(p,q))/N - ((sum_h S_h(p))/N) * ((sum_h S_h(q))/N).  The KL statistic is
  (sum_h K_h)/N. The label column is the label vector broadcast along a new axis, and the logits are untouched.
-/
import proofs.«135353_j33835752358351_2_alg».proof.Proof.Spec
import proofs.«135353_j33835752358351_2_alg».proof.Proof.Gen.KernelIdeal.Launch
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.IdealHost

set_option maxHeartbeats 8000000

noncomputable section

namespace Cert.KernelIdeal.Mid

open Cert.KernelIdeal Cert.KernelIdeal.Gen Cert.Loss Idealize.ShloMosaic Idealize.ShloMosaic.StableHlo Idealize.ShloMosaic.ValueIdx

variable [Cert.KernelIdeal.Facts]

/-- The contents of the three results of the first device call. -/
abbrev XG := FVec Ideal S2x1280x1280 .f32
abbrev XS := FVec Ideal S2x1x1280 .f32
abbrev XK := FVec Ideal S2x1x1 .f32

/-! ## The host values as functions of the three contents -/

/-- The halves of the Gram matrix, of the column sums and of the KL statistic, added. -/
def v1 (P1 : XG) : FVec Ideal S1280x1280 .f32 :=
  Host.reduceAdd (F := Ideal) P1 (constant (F := Ideal) S_ .f32 0x00000000#32) reducesTo_S2x1280x1280_S1280x1280_d0 h_S_
def v2 (P2 : XS) : FVec Ideal S1x1280 .f32 :=
  Host.reduceAdd (F := Ideal) P2 (constant (F := Ideal) S_ .f32 0x00000000#32) reducesTo_S2x1x1280_S1x1280_d0 h_S_
def v3 (P3 : XK) : FVec Ideal S_ .f32 :=
  Host.reduceAdd (F := Ideal) P3 (constant (F := Ideal) S_ .f32 0x00000000#32) reducesTo_S2x1x1_S_d0_1_2 h_S_
/-- The mean row, the divided Gram matrix, the mean column, their outer product, and the covariance matrix. -/
def v5 (P2 : XS) : FVec Ideal S1x1280 .f32 :=
  Host.divf (F := Ideal) (v2 P2) (broadcastInDim S1x1280 ![] bcast_S_S1x1280 (constant (F := Ideal) S_ .f32 0x46800000#32))
def v7 (P1 : XG) : FVec Ideal S1280x1280 .f32 :=
  Host.divf (F := Ideal) (v1 P1) (broadcastInDim S1280x1280 ![] bcast_S_S1280x1280 (constant (F := Ideal) S_ .f32 0x46800000#32))
def v8 (P2 : XS) : FVec Ideal S1280x1 .f32 :=
  transpose S1280x1 [1, 0] (v5 P2) transposes_S1x1280_S1280x1_1_0
def v9 (P2 : XS) : FVec Ideal S1280x1280 .f32 :=
  Host.dotGeneral (F := Ideal) dot_S1280x1_S1x1280_S1280x1280_1_0_0_1_n_n none (v8 P2) (v5 P2)
def v10 (P1 : XG) (P2 : XS) : FVec Ideal S1280x1280 .f32 :=
  subf (F := Ideal) (v7 P1) (v9 P2)
/-- The identity matrix: the comparison of the two coordinate words, converted. -/
def v16 : FVec Ideal S1280x1280 .f32 :=
  uitofp (F := Ideal) .f32 (cmpi .eq (addi (iotaInDim S1280x1280 32 0)
    (broadcastInDim S1280x1280 ![] bcast_S_S1280x1280 (constantI S_ 32 0#32))) (iotaInDim S1280x1280 32 1))
/-- The squared differences and their sum. -/
def v18 (P1 : XG) (P2 : XS) : FVec Ideal S1280x1280 .f32 :=
  mulf (F := Ideal) (subf (F := Ideal) (v10 P1 P2) v16) (subf (F := Ideal) (v10 P1 P2) v16)
def v19 (P1 : XG) (P2 : XS) : FVec Ideal S_ .f32 :=
  Host.reduceAdd (F := Ideal) (v18 P1 P2) (constant (F := Ideal) S_ .f32 0x00000000#32) reducesTo_S1280x1280_S_d0_1 h_S_
/-- The KL statistic. -/
def v20 (P3 : XK) : FVec Ideal S_ .f32 :=
  Host.divf (F := Ideal) (v3 P3) (constant (F := Ideal) S_ .f32 0x46800000#32)

/-! ## The stretch's results are these values at the first call's results -/

theorem cov_term (W : Valuation τ sig (Elt Ideal)) :
    StableHlo.after (hostOps1 (F := Ideal)) W (Proc.devRef .tc main_v19)
      = v19 (W (Proc.devRef .tc main_v0_0)) (W (Proc.devRef .tc main_v0_1)) := by
  after_results_simp
  rfl

theorem kl_term (W : Valuation τ sig (Elt Ideal)) :
    StableHlo.after (hostOps1 (F := Ideal)) W (Proc.devRef .tc main_v20) = v20 (W (Proc.devRef .tc main_v0_2)) := by
  after_results_simp
  rfl

/-- The label column is the label vector broadcast along a new axis. -/
theorem mid_v21 (W : Valuation τ sig (Elt Ideal)) :
    StableHlo.after (hostOps1 (F := Ideal)) W (Proc.devRef .tc main_v21)
      = broadcastInDim S16384x1 ![0] bcast_S16384_S16384x1_0 (W (Proc.devRef .tc main_arg1)) := by
  after_results_simp

/-- The logits are untouched. -/
theorem mid_arg0 (W : Valuation τ sig (Elt Ideal)) :
    StableHlo.after (hostOps1 (F := Ideal)) W (Proc.devRef .tc main_arg0) = W (Proc.devRef .tc main_arg0) := by
  after_results_simp

/-! ## The values at an index -/

/-- A host sum starts from the zero word, which is 0. -/
theorem zero_init (X : EReal) :
    (constant (F := Ideal) S_ .f32 0x00000000#32) (Shape.Idx.first h_S_) + X = X := by
  rw [constant_apply, Ideal.ofBits_zero_f32, zero_add]

/-- The word of 16384 broadcast to any shape reads that word everywhere. -/
theorem nW_bcast {T : Shape} (h : S_.BroadcastsInDim T ![]) (j : T.Idx) :
    broadcastInDim T ![] h (constant (F := Ideal) S_ .f32 0x46800000#32) j = nW := by
  rw [broadcastInDim_scalar_apply]
  rfl

theorem v1_apply (P1 : XG) (p q : Fin 1280) : v1 P1 (ix2 p q) = ∑ h : Fin 2, P1 (ix3 h p q) := by
  unfold v1
  simp only [Host.reduceAdd, Ideal.hostReduceAdd_def]
  rw [Ideal.hostReduceAdd_single reducesTo_S2x1280x1280_S1280x1280_d0 (by decide), zero_init]
  refine Finset.sum_congr rfl fun k _ => ?_
  exact congrArg P1 (funext fun a => Fin.ext (by match a with | ⟨0, _⟩ => rfl | ⟨1, _⟩ => rfl | ⟨2, _⟩ => rfl))

theorem v2_apply (P2 : XS) (p : Fin 1280) : v2 P2 (ix2 0 p) = ∑ h : Fin 2, P2 (ix3 h 0 p) := by
  unfold v2
  simp only [Host.reduceAdd, Ideal.hostReduceAdd_def]
  rw [Ideal.hostReduceAdd_single reducesTo_S2x1x1280_S1x1280_d0 (by decide), zero_init]
  refine Finset.sum_congr rfl fun k _ => ?_
  exact congrArg P2 (funext fun a => Fin.ext (by match a with | ⟨0, _⟩ => rfl | ⟨1, _⟩ => rfl | ⟨2, _⟩ => rfl))

/-- The two halves as the indices of a [2, 1, 1] array. -/
def halves : Fin 2 ≃ S2x1x1.Idx where
  toFun h := ix3 h 0 0
  invFun j := j 0
  left_inv _ := rfl
  right_inv j := funext fun a => Fin.ext (by
    match a with
    | ⟨0, _⟩ => rfl
    | ⟨1, _⟩ => exact (Nat.lt_one_iff.mp (j ⟨1, by decide⟩).isLt).symm
    | ⟨2, _⟩ => exact (Nat.lt_one_iff.mp (j ⟨2, by decide⟩).isLt).symm)

theorem v3_apply (P3 : XK) (i : S_.Idx) : v3 P3 i = ∑ h : Fin 2, P3 (ix3 h 0 0) := by
  unfold v3
  simp only [Host.reduceAdd, Ideal.hostReduceAdd_def]
  rw [Ideal.hostReduceAdd_total reducesTo_S2x1x1_S_d0_1_2 (fun b => b.elim0), zero_init]
  exact (Equiv.sum_comp halves P3).symm

theorem v5_apply (P2 : XS) (p : Fin 1280) :
    v5 P2 (ix2 0 p) = Ideal.div (∑ h : Fin 2, P2 (ix3 h 0 p)) nW := by
  show FloatOps.hostDivf (F := Ideal) (φ := .f32) (v2 P2 (ix2 0 p)) (broadcastInDim S1x1280 ![] bcast_S_S1x1280 (constant (F := Ideal) S_ .f32 0x46800000#32) (ix2 0 p)) = _
  rw [v2_apply, nW_bcast, Ideal.hostDivf_def]

theorem v7_apply (P1 : XG) (p q : Fin 1280) :
    v7 P1 (ix2 p q) = Ideal.div (∑ h : Fin 2, P1 (ix3 h p q)) nW := by
  show FloatOps.hostDivf (F := Ideal) (φ := .f32) (v1 P1 (ix2 p q)) (broadcastInDim S1280x1280 ![] bcast_S_S1280x1280 (constant (F := Ideal) S_ .f32 0x46800000#32) (ix2 p q)) = _
  rw [v1_apply, nW_bcast, Ideal.hostDivf_def]

theorem v8_apply (P2 : XS) (p : Fin 1280) : v8 P2 (ix2 p 0) = v5 P2 (ix2 0 p) := by
  unfold v8
  generalize v5 P2 = y
  exact transpose_apply [1, 0] y transposes_S1x1280_S1280x1_1_0 (ix2 p 0) (ix2 0 p) (fun b => match b with
    | ⟨0, _⟩ => rfl
    | ⟨1, _⟩ => rfl)

theorem lhs_v9_0 (i : S1280x1280.Idx) (q : dot_S1280x1_S1x1280_S1280x1280_1_0_0_1_n_n.contr.Idx) : (dot_S1280x1_S1x1280_S1280x1280_1_0_0_1_n_n.lhsIdx i q 0).val = (i 0).val := by
  unfold DotDims.lhsIdx
  rw [dif_neg (show ¬(0 : Fin S1280x1.rank) ∈ dot_S1280x1_S1x1280_S1280x1280_1_0_0_1_n_n.lhsBatch by decide), dif_pos (show (0 : Fin S1280x1.rank) ∈ dot_S1280x1_S1x1280_S1280x1280_1_0_0_1_n_n.lhsNonContracting by decide)]
  rfl
theorem lhs_v9_1 (i : S1280x1280.Idx) (q : dot_S1280x1_S1x1280_S1280x1280_1_0_0_1_n_n.contr.Idx) : (dot_S1280x1_S1x1280_S1280x1280_1_0_0_1_n_n.lhsIdx i q 1).val = (q ⟨0, by decide⟩).val :=
  dot_S1280x1_S1x1280_S1280x1280_1_0_0_1_n_n.lhsIdx_val_of_single rfl i q
theorem rhs_v9_0 (i : S1280x1280.Idx) (q : dot_S1280x1_S1x1280_S1280x1280_1_0_0_1_n_n.contr.Idx) : (dot_S1280x1_S1x1280_S1280x1280_1_0_0_1_n_n.rhsIdx i q 0).val = (q ⟨0, by decide⟩).val :=
  dot_S1280x1_S1x1280_S1280x1280_1_0_0_1_n_n.rhsIdx_val_of_single rfl i q
theorem rhs_v9_1 (i : S1280x1280.Idx) (q : dot_S1280x1_S1x1280_S1280x1280_1_0_0_1_n_n.contr.Idx) : (dot_S1280x1_S1x1280_S1280x1280_1_0_0_1_n_n.rhsIdx i q 1).val = (i 1).val := by
  unfold DotDims.rhsIdx
  rw [dif_neg (show ¬(1 : Fin S1x1280.rank) ∈ dot_S1280x1_S1x1280_S1280x1280_1_0_0_1_n_n.rhsBatch by decide), dif_pos (show (1 : Fin S1x1280.rank) ∈ dot_S1280x1_S1x1280_S1280x1280_1_0_0_1_n_n.rhsNonContracting by decide)]
  rfl

/-- The outer product: a matrix product whose contracted axis has one element. -/
theorem v9_apply (P2 : XS) (p q : Fin 1280) : v9 P2 (ix2 p q) = v8 P2 (ix2 p 0) * v5 P2 (ix2 0 q) := by
  unfold v9
  generalize v8 P2 = y0
  generalize v5 P2 = y1
  simp only [Host.dotGeneral]
  rw [Ideal.dotGeneral_apply, ← Equiv.sum_comp (ValueIdx.contrEquiv1 dot_S1280x1_S1x1280_S1280x1280_1_0_0_1_n_n 1 rfl rfl).symm, Fin.sum_univ_one]
  have hk := ValueIdx.contrEquiv1_symm_val dot_S1280x1_S1x1280_S1280x1280_1_0_0_1_n_n 1 rfl rfl 0
  have el : dot_S1280x1_S1x1280_S1280x1280_1_0_0_1_n_n.lhsIdx (ix2 p q) ((ValueIdx.contrEquiv1 dot_S1280x1_S1x1280_S1280x1280_1_0_0_1_n_n 1 rfl rfl).symm 0) = ix2 p 0 := funext fun a => Fin.ext (by
    match a with
    | ⟨0, _⟩ => exact lhs_v9_0 _ _
    | ⟨1, _⟩ => exact (lhs_v9_1 _ _).trans hk)
  have er : dot_S1280x1_S1x1280_S1280x1280_1_0_0_1_n_n.rhsIdx (ix2 p q) ((ValueIdx.contrEquiv1 dot_S1280x1_S1x1280_S1280x1280_1_0_0_1_n_n 1 rfl rfl).symm 0) = ix2 0 q := funext fun a => Fin.ext (by
    match a with
    | ⟨0, _⟩ => exact (rhs_v9_0 _ _).trans hk
    | ⟨1, _⟩ => exact rhs_v9_1 _ _)
  rw [el, er]

/-- The covariance matrix's entry. -/
theorem v10_apply (P1 : XG) (P2 : XS) (p q : Fin 1280) :
    v10 P1 P2 (ix2 p q) = Ideal.div (∑ h : Fin 2, P1 (ix3 h p q)) nW
      - Ideal.div (∑ h : Fin 2, P2 (ix3 h 0 p)) nW * Ideal.div (∑ h : Fin 2, P2 (ix3 h 0 q)) nW := by
  show FloatOps.subf (F := Ideal) (φ := .f32) (v7 P1 (ix2 p q)) (v9 P2 (ix2 p q)) = _
  rw [v7_apply, v9_apply, v8_apply, v5_apply, v5_apply, Ideal.subf_def]

/-- The unsigned conversion of the comparison of two coordinate words below 2^32 is the identity matrix's entry. -/
theorem iota_delta {n : Nat} (hn : n ≤ 2 ^ 32) (p q : Fin n) :
    FloatOps.uitofp (F := Ideal) .f32
        (IntOp.cmpi .eq (IntOp.addi (BitVec.ofNat 32 p.val) 0#32) (BitVec.ofNat 32 q.val)) = delta p q := by
  have hadd : IntOp.addi (BitVec.ofNat 32 p.val) 0#32 = BitVec.ofNat 32 p.val := BitVec.add_zero _
  rw [hadd]
  unfold delta
  by_cases h : p = q
  · subst h
    rw [if_pos rfl]
    have e : IntOp.cmpi .eq (BitVec.ofNat 32 p.val) (BitVec.ofNat 32 p.val) = 1#1 := by
      show BitVec.ofBool (BitVec.ofNat 32 p.val == BitVec.ofNat 32 p.val) = 1#1
      rw [beq_self_eq_true]; rfl
    rw [e]
    show ((((1#1 : BitVec 1).toNat : ℝ)) : EReal) = 1
    have e1 : (1#1 : BitVec 1).toNat = 1 := by decide
    rw [e1, Nat.cast_one, EReal.coe_one]
  · rw [if_neg h]
    have hne : ¬ BitVec.ofNat 32 p.val = BitVec.ofNat 32 q.val := by
      intro e
      apply h
      have e2 := congrArg BitVec.toNat e
      have hp := p.isLt
      have hq := q.isLt
      rw [BitVec.toNat_ofNat, BitVec.toNat_ofNat, Nat.mod_eq_of_lt (by omega), Nat.mod_eq_of_lt (by omega)] at e2
      exact Fin.ext e2
    have e : IntOp.cmpi .eq (BitVec.ofNat 32 p.val) (BitVec.ofNat 32 q.val) = 0#1 := by
      show BitVec.ofBool (BitVec.ofNat 32 p.val == BitVec.ofNat 32 q.val) = 0#1
      rw [beq_eq_false_iff_ne.mpr hne]; rfl
    rw [e]
    show ((((0#1 : BitVec 1).toNat : ℝ)) : EReal) = 0
    have e0 : (0#1 : BitVec 1).toNat = 0 := by decide
    rw [e0, Nat.cast_zero, EReal.coe_zero]

theorem v16_apply (p q : Fin 1280) : v16 (ix2 p q) = delta p q := by
  show FloatOps.uitofp (F := Ideal) .f32 (IntOp.cmpi .eq (IntOp.addi (BitVec.ofNat 32 p.val)
    (broadcastInDim S1280x1280 ![] bcast_S_S1280x1280 (constantI S_ 32 0#32) (ix2 p q))) (BitVec.ofNat 32 q.val)) = _
  rw [broadcastInDim_scalar_apply]
  exact iota_delta (by norm_num) p q

/-! ## The two losses -/

theorem mid_cov (W : Valuation τ sig (Elt Ideal)) (i : S_.Idx) :
    StableHlo.after (hostOps1 (F := Ideal)) W (Proc.devRef .tc main_v19) i
      = covLoss (fun p q => Ideal.div (∑ h : Fin 2, (W (Proc.devRef .tc main_v0_0) : S2x1280x1280.Idx → EReal) (ix3 h p q)) nW
          - Ideal.div (∑ h : Fin 2, (W (Proc.devRef .tc main_v0_1) : S2x1x1280.Idx → EReal) (ix3 h 0 p)) nW
            * Ideal.div (∑ h : Fin 2, (W (Proc.devRef .tc main_v0_1) : S2x1x1280.Idx → EReal) (ix3 h 0 q)) nW) := by
  rw [cov_term]
  generalize W (Proc.devRef .tc main_v0_0) = P1
  generalize W (Proc.devRef .tc main_v0_1) = P2
  unfold v19
  simp only [Host.reduceAdd, Ideal.hostReduceAdd_def]
  rw [Ideal.hostReduceAdd_total reducesTo_S1280x1280_S_d0_1 (fun b => b.elim0), zero_init, sum_idx2 (v18 P1 P2)]
  unfold covLoss
  show (_ : EReal) = _
  refine Finset.sum_congr rfl fun p _ => Finset.sum_congr rfl fun q _ => ?_
  show FloatOps.mulf (F := Ideal) (φ := .f32) (FloatOps.subf (F := Ideal) (φ := .f32) (v10 P1 P2 (ix2 p q)) (v16 (ix2 p q))) (FloatOps.subf (F := Ideal) (φ := .f32) (v10 P1 P2 (ix2 p q)) (v16 (ix2 p q))) = _
  rw [v10_apply, v16_apply, Ideal.subf_def, Ideal.mulf_def]

theorem mid_kl (W : Valuation τ sig (Elt Ideal)) (i : S_.Idx) :
    StableHlo.after (hostOps1 (F := Ideal)) W (Proc.devRef .tc main_v20) i
      = Ideal.div (∑ h : Fin 2, (W (Proc.devRef .tc main_v0_2) : S2x1x1.Idx → EReal) (ix3 h 0 0)) nW := by
  rw [kl_term]
  generalize W (Proc.devRef .tc main_v0_2) = P3
  show FloatOps.hostDivf (F := Ideal) (φ := .f32) (v3 P3 i) ((constant (F := Ideal) S_ .f32 0x46800000#32) i) = _
  rw [v3_apply, Ideal.hostDivf_def]
  rfl

end Cert.KernelIdeal.Mid

end
-- ==== Proof.HostChain.lean ====
/-
  The kernel program's remaining host operations, read over an arbitrary valuation.

  * Each stretch of host operations leaves untouched the buffers it does not write: the weight matrix through all
    three stretches between the device calls, and the covariance loss and the KL statistic through the two later ones.
  * The last stretch, after the second device call, is the weighted sum of the six losses: the three [1, 1] results
    of that call read at their one entry, the square root taken of the last, and the products with the words of 1,
    0.2 and 0.1 added in the order of the spec's weighted sum.
  * The two stretches computing the negative mean of the gathered log-probabilities, composed, are one term over the
    logits and the label column.
-/
import proofs.«135353_j33835752358351_2_alg».proof.Proof.Spec
import proofs.«135353_j33835752358351_2_alg».proof.Proof.Gen.KernelIdeal.Launch
import proofs.«135353_j33835752358351_2_alg».proof.Proof.LibCallCasts
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.IdealHost

set_option maxHeartbeats 8000000

noncomputable section

namespace Cert.KernelIdeal.Mid

open Cert.KernelIdeal Cert.KernelIdeal.Gen Cert.Loss Idealize.ShloMosaic Idealize.ShloMosaic.StableHlo Idealize.ShloMosaic.ValueIdx

variable [Cert.KernelIdeal.Facts]

/-! ## What each stretch leaves untouched -/

theorem keep1_arg2 (W : Valuation τ sig (Elt Ideal)) :
    StableHlo.after (hostOps1 (F := Ideal)) W (Proc.devRef .tc main_arg2) = W (Proc.devRef .tc main_arg2) := by
  after_results_simp
theorem keep11_arg2 (W : Valuation τ sig (Elt Ideal)) :
    StableHlo.after (hostOps1_1 (F := Ideal)) W (Proc.devRef .tc main_arg2) = W (Proc.devRef .tc main_arg2) := by
  after_results_simp
theorem keep11_v19 (W : Valuation τ sig (Elt Ideal)) :
    StableHlo.after (hostOps1_1 (F := Ideal)) W (Proc.devRef .tc main_v19) = W (Proc.devRef .tc main_v19) := by
  after_results_simp
theorem keep11_v20 (W : Valuation τ sig (Elt Ideal)) :
    StableHlo.after (hostOps1_1 (F := Ideal)) W (Proc.devRef .tc main_v20) = W (Proc.devRef .tc main_v20) := by
  after_results_simp
theorem keep12_arg2 (W : Valuation τ sig (Elt Ideal)) :
    StableHlo.after (hostOps1_2 (F := Ideal)) W (Proc.devRef .tc main_arg2) = W (Proc.devRef .tc main_arg2) := by
  after_results_simp
theorem keep12_v19 (W : Valuation τ sig (Elt Ideal)) :
    StableHlo.after (hostOps1_2 (F := Ideal)) W (Proc.devRef .tc main_v19) = W (Proc.devRef .tc main_v19) := by
  after_results_simp
theorem keep12_v20 (W : Valuation τ sig (Elt Ideal)) :
    StableHlo.after (hostOps1_2 (F := Ideal)) W (Proc.devRef .tc main_v20) = W (Proc.devRef .tc main_v20) := by
  after_results_simp

/-! ## The last stretch is the weighted sum -/

/-- A [1, 1] array recast to a scalar reads its one entry. -/
theorem cast11_apply {α : Type} (x : S1x1.Idx → α) (i : S_.Idx) :
    shapeCast S_ x shapeCasts_S1x1_S_ i = x (ix2 0 0) := by
  obtain rfl : i = ix0 := eq_ix0 i
  exact shapeCast_apply x shapeCasts_S1x1_S_ ix0 (ix2 0 0) (by decide)

theorem tail_v41 (W : Valuation τ sig (Elt Ideal)) (i : S_.Idx) :
    StableHlo.after (hostOps2 (F := Ideal)) W (Proc.devRef .tc main_v41) i
      = Cert.Loss.combine ((W (Proc.devRef .tc main_v25) : S_.Idx → EReal) i)
          ((W (Proc.devRef .tc main_v20) : S_.Idx → EReal) i) ((W (Proc.devRef .tc main_v19) : S_.Idx → EReal) i)
          ((W (Proc.devRef .tc main_v26_0) : S1x1.Idx → EReal) (ix2 0 0))
          ((W (Proc.devRef .tc main_v26_1) : S1x1.Idx → EReal) (ix2 0 0))
          ((W (Proc.devRef .tc main_v26_2) : S1x1.Idx → EReal) (ix2 0 0)) := by
  after_results_simp
  have c0 := cast11_apply (W (Proc.devRef .tc main_v26_0)) i
  have c1 := cast11_apply (W (Proc.devRef .tc main_v26_1)) i
  have c2 := cast11_apply (W (Proc.devRef .tc main_v26_2)) i
  unfold combine oneW w02 w01
  rw [← c0, ← c1, ← c2]
  rfl

/-! ## The negative mean of the gathered log-probabilities as one term -/

/-- The label column with negative labels wrapped by 1000, as a [16384, 1, 1] array of positions. -/
def nllIdx (y : IVec S16384x1 32) : IVec S16384x1x1 32 :=
  shapeCast S16384x1x1
    (select (cmpi .slt y (broadcastInDim S16384x1 ![] bcast_S_S16384x1 (constantI S_ 32 0#32)))
      (addi y (broadcastInDim S16384x1 ![] bcast_S_S16384x1 (constantI S_ 32 1000#32))) y)
    shapeCasts_S16384x1_S16384x1x1

/-- Whether each position lies in [0, 999]. -/
def nllMask (y : IVec S16384x1 32) : IVec S16384x1 1 :=
  Host.reduce IntOp.andi
    (andi (cmpi .sge (nllIdx y) (broadcastInDim S16384x1x1 ![] bcast_S_S16384x1x1 (constantI S_ 32 0#32)))
      (cmpi .sle (nllIdx y) (broadcastInDim S16384x1x1 ![0, 1, 2] bcast_S1x1x1_S16384x1x1_0_1_2
        (broadcastInDim S1x1x1 ![2] bcast_S1_S1x1x1_2 (constantI S1 32 999#32)))))
    (constantI S_ 1 1#1) reducesTo_S16384x1x1_S16384x1_d2 h_S_

/-- The negative of the sum over the rows of the gathered entry (the junk word where the position is out of range),
    divided by the word of 16384. -/
def nllK (x0 : FVec Ideal S16384x1000 .f32) (y : IVec S16384x1 32) : FVec Ideal S_ .f32 :=
  Host.negf (F := Ideal) (Host.divf (F := Ideal)
    (Host.reduceAdd (F := Ideal)
      (select (nllMask y) (Host.gather gather_S16384x1000_S16384x1x1_S16384x1_n_1_0_0_1_2_11 x0 (nllIdx y))
        (broadcastInDim S16384x1 ![] bcast_S_S16384x1 (constant (F := Ideal) S_ .f32 0x7FC00000#32)))
      (constant (F := Ideal) S_ .f32 0x00000000#32) reducesTo_S16384x1_S_d0_1 h_S_)
    (constant (F := Ideal) S_ .f32 0x46800000#32))

set_option maxRecDepth 100000 in
theorem nll_term (W : Valuation τ sig (Elt Ideal)) :
    StableHlo.after (hostOps1_2 (F := Ideal)) (StableHlo.after (hostOps1_1 (F := Ideal)) W) (Proc.devRef .tc main_v25)
      = nllK (W (Proc.devRef .tc main_arg0)) (W (Proc.devRef .tc main_v21)) := by
  after_results_simp
  simp only [Cert.LibCallCasts.ofBuf_toBuf]
  rfl

end Cert.KernelIdeal.Mid

end
-- ==== Proof.KernelFeat.lean ====
/-
  The two feature losses the idealized kernel program's host operations compute from the first kernel's result
  arrays, as functions of the feature matrix: the per-stretch KL statistics summed and divided by 16384 are the KL
  statistic in the kernel's arrangement, and the per-stretch Gram matrices and column sums, summed, divided by 16384
  and combined as gram/n - mean · mean, give the covariance matrix in the kernel's arrangement, whose squared
  Frobenius distance from the identity the host then takes. The buffers are followed through the fold of @main's
  segments: neither the gather chain nor the second kernel writes them.
-/
import proofs.«135353_j33835752358351_2_alg».proof.Proof.Gen.KernelIdeal.Frame
import proofs.«135353_j33835752358351_2_alg».proof.Proof.AccSpec
import proofs.«135353_j33835752358351_2_alg».proof.Proof.HostMid
import proofs.«135353_j33835752358351_2_alg».proof.Proof.HostChain
import proofs.«135353_j33835752358351_2_alg».proof.Proof.Spec

set_option maxRecDepth 16384

noncomputable section

namespace Cert.KernelIdeal.Res

open Cert.KernelIdeal Cert.KernelIdeal.Gen Cert.Loss
open Idealize.ShloMosaic Idealize.ShloMosaic.TcCoe Idealize.SL.Sem Idealize.ShloMosaic.ValueIdx

variable [Cert.KernelIdeal.Facts]
open Facts₀ Facts

variable (m : (ℓ : Loc nD τ sig) → Buf (Elt Ideal) ℓ) (ρ : Dev nD → PrngReg) (c : Dev nD)

/-- The feature matrix as launched. -/
abbrev feat : SF.Idx → EReal := m ((c.tc : Thread nD τ).loc main_arg3)

theorem featA_eq : Acc.featA (V0 m ρ) c = feat m c := rfl

/-- The KL buffer at the second kernel's exit. -/
theorem v20_eq (i : S_.Idx) : (W5 m ρ c (Proc.devRef .tc main_v20) : S_.Idx → EReal) i = klK (feat m c) := by
  have e1 : W5 m ρ c (Proc.devRef .tc main_v20) = W4 m ρ c (Proc.devRef .tc main_v20) := W5_of_ne m ρ c main_v20 (by decide)
  have e2 : W4 m ρ c (Proc.devRef .tc main_v20) = W3 m ρ c (Proc.devRef .tc main_v20) := Mid.keep12_v20 (W3 m ρ c)
  have e3 : W3 m ρ c (Proc.devRef .tc main_v20) = W2 m ρ c (Proc.devRef .tc main_v20) := Mid.keep11_v20 (W2 m ρ c)
  have e4 := Mid.mid_kl (W1 m ρ c) i
  have e5 : (W1 m ρ c (Proc.devRef .tc main_v0_2) : S2x1x1.Idx → EReal) = Acc.G3 (V0 m ρ) c :=
    (W1_arr m ρ c 3).trans (Acc.final3 (V0 m ρ) c)
  refine (congrFun (e1.trans (e2.trans e3)) i).trans (e4.trans ?_)
  rw [e5]
  unfold klK
  refine congrArg (fun s => Ideal.div s nW) ?_
  exact (Acc.kl_tiles (V0 m ρ) c).trans rfl

/-- The covariance-loss buffer at the second kernel's exit. -/
theorem v19_eq (i : S_.Idx) : (W5 m ρ c (Proc.devRef .tc main_v19) : S_.Idx → EReal) i = covLoss (covK (feat m c)) := by
  have e1 : W5 m ρ c (Proc.devRef .tc main_v19) = W4 m ρ c (Proc.devRef .tc main_v19) := W5_of_ne m ρ c main_v19 (by decide)
  have e2 : W4 m ρ c (Proc.devRef .tc main_v19) = W3 m ρ c (Proc.devRef .tc main_v19) := Mid.keep12_v19 (W3 m ρ c)
  have e3 : W3 m ρ c (Proc.devRef .tc main_v19) = W2 m ρ c (Proc.devRef .tc main_v19) := Mid.keep11_v19 (W2 m ρ c)
  have e4 := Mid.mid_cov (W1 m ρ c) i
  have e5 : (W1 m ρ c (Proc.devRef .tc main_v0_0) : S2x1280x1280.Idx → EReal) = Acc.G1 (V0 m ρ) c :=
    (W1_arr m ρ c 1).trans (Acc.final1 (V0 m ρ) c)
  have e6 : (W1 m ρ c (Proc.devRef .tc main_v0_1) : S2x1x1280.Idx → EReal) = Acc.G2 (V0 m ρ) c :=
    (W1_arr m ρ c 2).trans (Acc.final2 (V0 m ρ) c)
  refine (congrFun (e1.trans (e2.trans e3)) i).trans (e4.trans ?_)
  rw [e5, e6]
  refine congrArg covLoss (funext fun p => funext fun q => ?_)
  unfold covK meanC
  have hg : (∑ h : Fin 2, Acc.G1 (V0 m ρ) c (ix3 h p q)) = gram (feat m c) p q := Acc.gram_tiles (V0 m ρ) c p q
  have hp : (∑ h : Fin 2, Acc.G2 (V0 m ρ) c (ix3 h (0 : Fin 1) p)) = colSum (feat m c) p := Acc.colsum_tiles (V0 m ρ) c p
  have hq : (∑ h : Fin 2, Acc.G2 (V0 m ρ) c (ix3 h (0 : Fin 1) q)) = colSum (feat m c) q := Acc.colsum_tiles (V0 m ρ) c q
  rw [hg, hp, hq]

end Cert.KernelIdeal.Res

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.OrthoBody.lean ====
/-
  The second kernel's three results at the ideal instance, each the one entry of a [1, 1] block.

  The kernel loads the whole [1000, 1280] weight block W and stores
    * the sum over (p, q) of the square of  (W W^T)(p, q) - I(p, q), where W W^T is the product of W with its own
      transpose taken into a zero accumulator (the operands' truncation to bf16 changes nothing over the extended
      reals) and I(p, q) is 1.0 where the row coordinate equals the column coordinate and 0.0 elsewhere;
    * the sum over (p, k) of |W(p, k)|;
    * the sum over (p, k) of W(p, k) * W(p, k);
  each sum a reduction of the [1, n, m] cast of the summand over its axes 1 and 2, extracted as a scalar and splat
  over [1, 1]. They are `orthoS`, `l1S` and `l2S` of W.
-/
import proofs.«135353_j33835752358351_2_alg».proof.Proof.Spec
import proofs.«135353_j33835752358351_2_alg».proof.Proof.Gen.KernelIdeal.Frame
import proofs.«135353_j33835752358351_2_alg».proof.Proof.LibSum12
import proofs.«135353_j33835752358351_2_alg».proof.Proof.LibMatmulRows
import Idealize.ShloMosaic.PureOps.Ideal.Laws
import Idealize.ShloMosaic.Lib.ValueIdx
import Idealize.ShloMosaic.Lib.Pipeline.Value
import Idealize.ShloMosaic.Lib.ValueLayout

noncomputable section

namespace Cert.Loss.Ortho

open Idealize.ShloMosaic Idealize.ShloMosaic.ValueIdx
open Cert.KernelIdeal Cert.KernelIdeal.Gen Cert.LibSum12

variable [Cert.KernelIdeal.Facts]

/-! ## The pieces every result shares -/

theorem hz2 : (![0, 0] : Fin 2 → Nat) = fun _ => 0 := funext fun a => by fin_cases a <;> rfl

/-- The scalar extracted at (0, 0, 0) from a one-element vector cast to [1, 1, 1], splat over any shape, is that
    vector's entry at the index the cast matches with (0, 0, 0). -/
theorem splat_extract_apply {t : Shape} (M : S1.Idx → EReal) (hc : S1.ShapeCasts S1x1x1)
    (hp : ∀ a, (![0, 0, 0] : Fin 3 → Nat) a < S1x1x1.size a) (y : t.Idx) :
    broadcast t (extractAt ![0, 0, 0] (shapeCast S1x1x1 M hc) hp) y
      = M (Shape.reshapeEquiv hc (fun a => ⟨(![0, 0, 0] : Fin 3 → Nat) a, hp a⟩)) := rfl

/-- The absolute value of a vector at an index. -/
theorem absf_apply {s : Shape} {φ : FTy} (a : FVec Ideal s φ) (i : s.Idx) : absf a i = max (a i) (-(a i)) := rfl

/-! ## The product of the block with its own transpose -/

theorem lhsW_0 (i : S1000x1000.Idx) (c : dot_S1000x1280_S1000x1280_S1000x1000_1_1_0_0_n_n.contr.Idx) : (dot_S1000x1280_S1000x1280_S1000x1000_1_1_0_0_n_n.lhsIdx i c (0 : Fin 2)).val = (i (0 : Fin 2)).val := by
  unfold DotDims.lhsIdx
  rw [dif_neg (show ¬(0 : Fin S1000x1280.rank) ∈ dot_S1000x1280_S1000x1280_S1000x1000_1_1_0_0_n_n.lhsBatch by decide), dif_pos (show (0 : Fin S1000x1280.rank) ∈ dot_S1000x1280_S1000x1280_S1000x1000_1_1_0_0_n_n.lhsNonContracting by decide)]
  rfl
theorem lhsW_1 (i : S1000x1000.Idx) (c : dot_S1000x1280_S1000x1280_S1000x1000_1_1_0_0_n_n.contr.Idx) : (dot_S1000x1280_S1000x1280_S1000x1000_1_1_0_0_n_n.lhsIdx i c (1 : Fin 2)).val = (c ⟨0, by decide⟩).val :=
  dot_S1000x1280_S1000x1280_S1000x1000_1_1_0_0_n_n.lhsIdx_val_of_single rfl i c
theorem rhsW_0 (i : S1000x1000.Idx) (c : dot_S1000x1280_S1000x1280_S1000x1000_1_1_0_0_n_n.contr.Idx) : (dot_S1000x1280_S1000x1280_S1000x1000_1_1_0_0_n_n.rhsIdx i c (0 : Fin 2)).val = (i (1 : Fin 2)).val := by
  unfold DotDims.rhsIdx
  rw [dif_neg (show ¬(0 : Fin S1000x1280.rank) ∈ dot_S1000x1280_S1000x1280_S1000x1000_1_1_0_0_n_n.rhsBatch by decide), dif_pos (show (0 : Fin S1000x1280.rank) ∈ dot_S1000x1280_S1000x1280_S1000x1000_1_1_0_0_n_n.rhsNonContracting by decide)]
  rfl
theorem rhsW_1 (i : S1000x1000.Idx) (c : dot_S1000x1280_S1000x1280_S1000x1000_1_1_0_0_n_n.contr.Idx) : (dot_S1000x1280_S1000x1280_S1000x1000_1_1_0_0_n_n.rhsIdx i c (1 : Fin 2)).val = (c ⟨0, by decide⟩).val :=
  dot_S1000x1280_S1000x1280_S1000x1000_1_1_0_0_n_n.rhsIdx_val_of_single rfl i c

/-- The product of the weight block with its own transpose, the operands truncated to bf16 (no change at the ideal
    instance), into the zero accumulator: at (p, q), the inner product of rows p and q. -/
theorem gram_apply (x0 : FVec Ideal S1000x1280 .f32) (h : FTy.bits .bf16 < FTy.bits .f32) (p q : Fin 1000) :
    matmul dot_S1000x1280_S1000x1280_S1000x1000_1_1_0_0_n_n none (truncf .bf16 x0 h) (truncf .bf16 x0 h) (constant S1000x1000 .f32 0x00000000#32) (ix2 p q)
      = Cert.Loss.wGram x0 p q := by
  rw [MatmulRows.matmul_zero_rows dot_S1000x1280_S1000x1280_S1000x1000_1_1_0_0_n_n rfl rfl lhsW_0 lhsW_1 rhsW_0 rhsW_1]
  unfold Cert.Loss.wGram
  exact Finset.sum_congr rfl fun k _ => rfl

/-! ## The identity matrix -/

/-- The f32 word 0x3F800000 is 1: sign 0, exponent 127, mantissa 0. -/
theorem ofBits_one : Ideal.ofBits .f32 0x3F800000#32 = 1 := by
  simp [Ideal.ofBits, Ideal.ieee, -EReal.coe_mul]; norm_num

theorem cmpi_apply {s : Shape} {w : Nat} (c : CmpIPredicate) (x y : IVec s w) (i : s.Idx) :
    cmpi c x y i = IntOp.cmpi c (x i) (y i) := rfl

/-- Two numbers below 2^32 are equal as 32-bit words exactly when they are equal. -/
theorem cmpi_eq_ofNat (a b : Nat) (ha : a < 2 ^ 32) (hb : b < 2 ^ 32) :
    IntOp.cmpi .eq (BitVec.ofNat 32 a) (BitVec.ofNat 32 b) = if a = b then 1#1 else 0#1 := by
  by_cases h : a = b
  · subst h; rw [if_pos rfl]; simp [IntOp.cmpi]
  · rw [if_neg h]
    have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    show BitVec.ofBool (BitVec.ofNat 32 a == BitVec.ofNat 32 b) = 0#1
    rw [beq_eq_false_iff_ne.mpr hne]
    rfl

/-- The select of 1.0 and 0.0 under "row coordinate = column coordinate" is the identity matrix's entry. -/
theorem eye_apply (h0 : S1000x1000.Iotas .tc 32 [0]) (h1 : S1000x1000.Iotas .tc 32 [1]) (p q : Fin 1000) :
    select (cmpi .eq (iota .tc S1000x1000 32 [0] h0) (iota .tc S1000x1000 32 [1] h1))
        (broadcast S1000x1000 (Scalar.ofBits .f32 0x3F800000#32 : Ideal .f32))
        (broadcast S1000x1000 (Scalar.ofBits .f32 0x00000000#32 : Ideal .f32)) (ix2 p q)
      = Cert.Loss.delta p q := by
  rw [select_apply, broadcast_apply, broadcast_apply, cmpi_apply, iota_single_apply, iota_single_apply]
  have hp : p.val < 2 ^ 32 := by have := p.isLt; omega
  have hq : q.val < 2 ^ 32 := by have := q.isLt; omega
  show Scalar.select (IntOp.cmpi .eq (BitVec.ofNat 32 p.val) (BitVec.ofNat 32 q.val)) _ _ = _
  rw [cmpi_eq_ofNat _ _ hp hq]
  unfold Cert.Loss.delta
  by_cases h : p = q
  · rw [if_pos (congrArg Fin.val h), if_pos h, select_one]; exact ofBits_one
  · rw [if_neg (fun e => h (Fin.ext e)), if_neg h, select_zero]; exact Ideal.ofBits_zero_f32

/-! ## The three results -/

/-- The sum of squares of the block. -/
theorem out1_3_eq (x0 : Vec Ideal S1000x1280 .f32) (y : S1x1.Idx) : out1_3 (F := Ideal) x0 y = Cert.Loss.l2S x0 := by
  unfold out1_3
  rw [View.canon_unit_zero hz2]
  simp only [View.ld_unit_zero (S := S1000x1280) hz2]
  unfold k1_pay3
  dsimp only
  rw [splat_extract_apply]
  rw [sum12_f32]
  simp only [shapeCast_ab_1ab_apply, mulf_apply]
  unfold Cert.Loss.l2S
  exact Finset.sum_congr rfl fun p _ => Finset.sum_congr rfl fun q _ => rfl

/-- The sum of absolute values of the block. -/
theorem out1_2_eq (x0 : Vec Ideal S1000x1280 .f32) (y : S1x1.Idx) : out1_2 (F := Ideal) x0 y = Cert.Loss.l1S x0 := by
  unfold out1_2
  rw [View.canon_unit_zero hz2]
  simp only [View.ld_unit_zero (S := S1000x1280) hz2]
  unfold k1_pay2
  dsimp only
  rw [splat_extract_apply]
  rw [sum12_f32]
  simp only [shapeCast_ab_1ab_apply, absf_apply]
  unfold Cert.Loss.l1S
  exact Finset.sum_congr rfl fun p _ => Finset.sum_congr rfl fun q _ => rfl

/-- The squared Frobenius distance of the block's product with its own transpose from the identity. -/
theorem out1_1_eq (x0 : Vec Ideal S1000x1280 .f32) (y : S1x1.Idx) : out1_1 (F := Ideal) x0 y = Cert.Loss.orthoS x0 := by
  unfold out1_1
  rw [View.canon_unit_zero hz2]
  simp only [View.ld_unit_zero (S := S1000x1280) hz2]
  unfold k1_pay1
  dsimp only
  rw [splat_extract_apply]
  rw [sum12_f32]
  simp only [shapeCast_ab_1ab_apply, mulf_apply, subf_apply]
  unfold Cert.Loss.orthoS
  refine Finset.sum_congr rfl fun p _ => Finset.sum_congr rfl fun q _ => ?_
  rw [gram_apply, eye_apply]

end Cert.Loss.Ortho

end
-- ==== Proof.Region1.lean ====
/-
  What the second kernel leaves in its three [1, 1] result arrays, at the ideal instance: its one grid point loads the
  whole weight matrix and stores the squared Frobenius distance of W W^T from the identity, the sum of |W| and the sum
  of squares of W, each block being the whole array.
-/
import proofs.«135353_j33835752358351_2_alg».proof.Proof.Gen.KernelIdeal.Frame
import proofs.«135353_j33835752358351_2_alg».proof.Proof.OrthoBody
import proofs.«135353_j33835752358351_2_alg».proof.Proof.Spec
import Idealize.ShloMosaic.Lib.Pipeline.Value
import Idealize.ShloMosaic.Lib.ValueIdx

set_option maxRecDepth 16384

noncomputable section

namespace Cert.KernelIdeal.Ortho

open Cert.KernelIdeal Cert.KernelIdeal.Gen
open Idealize.ShloMosaic Idealize.ShloMosaic.TcCoe Idealize.SL.Sem Idealize.ShloMosaic.ValueIdx
open Idealize.ShloMosaic.Pipeline (Dat)

variable [Cert.KernelIdeal.Facts]
open Facts₀ Facts

variable (V : (c : Dev nD) → (b : Ref sig .tc) → Buf (Elt Ideal) ((c : Thread nD τ).loc b)) (c : Dev nD)

/-- The one point's input block is the whole weight matrix as the region finds it. -/
theorem iblk1_whole (t : Fin cfg1.N) : (iblk1 V c 0 t : Vec Ideal S1000x1280 .f32) = (V c main_arg2 : S1000x1280.Idx → EReal) := by
  obtain ⟨e0, e1⟩ := (by decide +kernel : ∀ t : Fin grid1.N, win1_0.index t 0 = 0 ∧ win1_0.index t 1 = 0) t
  refine funext fun (y : S1000x1280.Idx) => ?_
  unfold iblk1
  rw [View.read_apply]
  show V c main_arg2 _ = V c main_arg2 y
  refine congrArg (V c main_arg2) ?_
  funext a
  apply Fin.ext
  match a with
  | ⟨0, _⟩ => show win1_0.index t 0 * 1000 + 1 * (y 0).val = (y 0).val; rw [e0]; omega
  | ⟨1, _⟩ => show win1_0.index t 1 * 1280 + 1 * (y 1).val = (y 1).val; rw [e1]; omega

theorem r1_flushed1 (t : Fin cfg1.N) (hf : (cfg1.win 1).flush t = true) :
    (dat1 V c).flushed 1 t = ((cfg1.win 1).blk t).view.read (Elt Ideal) (fun _ => Cert.Loss.orthoS (V c main_arg2)) := by
  show (cfg1.win 1).cut (grid1.coords t) ((dat1 V c).after 1 t) = _
  rw [after1_1]
  refine funext fun (y : S1x1.Idx) => ?_
  show out1_1 (F := Ideal) (iblk1 V c 0 t) y = Cert.Loss.orthoS (V c main_arg2)
  rw [Cert.Loss.Ortho.out1_1_eq, iblk1_whole]

theorem r1_mem1 (t : Fin cfg1.N) (i : S1x1.Idx) :
    i ∈ ((cfg1.win 1).blk t).view.set ↔ ∀ a : Fin 2, win1_1.index t a * S1x1.size a ≤ (i a).val ∧ (i a).val < win1_1.index t a * S1x1.size a + S1x1.size a := by
  show i ∈ ((View.whole main_v26_0).slice (win1_1.rect t)).set ↔ _
  rw [View.set_slice_whole, Rect.mem_set_unit]
  exact Iff.rfl

theorem r1_cover1 (i : S1x1.Idx) : ∃ t : Fin cfg1.N, (cfg1.win 1).flush t = true ∧ i ∈ ((cfg1.win 1).blk t).view.set := by
  have h0 : (i 0).val < 1 := (i 0).isLt
  have h1 : (i 1).val < 1 := (i 1).isLt
  obtain ⟨e0, e1⟩ := (by decide +kernel : ∀ t : Fin grid1.N, win1_1.index t 0 = 0 ∧ win1_1.index t 1 = 0) t1_0
  refine ⟨t1_0, flush1_1 t1_0, ?_⟩
  rw [r1_mem1]
  intro a
  match a with
  | ⟨0, _⟩ => show win1_1.index t1_0 0 * 1 ≤ (i 0).val ∧ (i 0).val < win1_1.index t1_0 0 * 1 + 1
              rw [e0]; omega
  | ⟨1, _⟩ => show win1_1.index t1_0 1 * 1 ≤ (i 1).val ∧ (i 1).val < win1_1.index t1_0 1 * 1 + 1
              rw [e1]; omega

theorem r1_final1 : (dat1 V c).arrAt 1 cfg1.N = fun _ => Cert.Loss.orthoS (V c main_arg2) :=
  (dat1 V c).arrAt_eq_of_cover 1 (fun _ => Cert.Loss.orthoS (V c main_arg2)) (r1_flushed1 V c) (r1_cover1)

theorem r1_flushed2 (t : Fin cfg1.N) (hf : (cfg1.win 2).flush t = true) :
    (dat1 V c).flushed 2 t = ((cfg1.win 2).blk t).view.read (Elt Ideal) (fun _ => Cert.Loss.l1S (V c main_arg2)) := by
  show (cfg1.win 2).cut (grid1.coords t) ((dat1 V c).after 2 t) = _
  rw [after1_2]
  refine funext fun (y : S1x1.Idx) => ?_
  show out1_2 (F := Ideal) (iblk1 V c 0 t) y = Cert.Loss.l1S (V c main_arg2)
  rw [Cert.Loss.Ortho.out1_2_eq, iblk1_whole]

theorem r1_mem2 (t : Fin cfg1.N) (i : S1x1.Idx) :
    i ∈ ((cfg1.win 2).blk t).view.set ↔ ∀ a : Fin 2, win1_2.index t a * S1x1.size a ≤ (i a).val ∧ (i a).val < win1_2.index t a * S1x1.size a + S1x1.size a := by
  show i ∈ ((View.whole main_v26_1).slice (win1_2.rect t)).set ↔ _
  rw [View.set_slice_whole, Rect.mem_set_unit]
  exact Iff.rfl

theorem r1_cover2 (i : S1x1.Idx) : ∃ t : Fin cfg1.N, (cfg1.win 2).flush t = true ∧ i ∈ ((cfg1.win 2).blk t).view.set := by
  have h0 : (i 0).val < 1 := (i 0).isLt
  have h1 : (i 1).val < 1 := (i 1).isLt
  obtain ⟨e0, e1⟩ := (by decide +kernel : ∀ t : Fin grid1.N, win1_2.index t 0 = 0 ∧ win1_2.index t 1 = 0) t1_0
  refine ⟨t1_0, flush1_2 t1_0, ?_⟩
  rw [r1_mem2]
  intro a
  match a with
  | ⟨0, _⟩ => show win1_2.index t1_0 0 * 1 ≤ (i 0).val ∧ (i 0).val < win1_2.index t1_0 0 * 1 + 1
              rw [e0]; omega
  | ⟨1, _⟩ => show win1_2.index t1_0 1 * 1 ≤ (i 1).val ∧ (i 1).val < win1_2.index t1_0 1 * 1 + 1
              rw [e1]; omega

theorem r1_final2 : (dat1 V c).arrAt 2 cfg1.N = fun _ => Cert.Loss.l1S (V c main_arg2) :=
  (dat1 V c).arrAt_eq_of_cover 2 (fun _ => Cert.Loss.l1S (V c main_arg2)) (r1_flushed2 V c) (r1_cover2)

theorem r1_flushed3 (t : Fin cfg1.N) (hf : (cfg1.win 3).flush t = true) :
    (dat1 V c).flushed 3 t = ((cfg1.win 3).blk t).view.read (Elt Ideal) (fun _ => Cert.Loss.l2S (V c main_arg2)) := by
  show (cfg1.win 3).cut (grid1.coords t) ((dat1 V c).after 3 t) = _
  rw [after1_3]
  refine funext fun (y : S1x1.Idx) => ?_
  show out1_3 (F := Ideal) (iblk1 V c 0 t) y = Cert.Loss.l2S (V c main_arg2)
  rw [Cert.Loss.Ortho.out1_3_eq, iblk1_whole]

theorem r1_mem3 (t : Fin cfg1.N) (i : S1x1.Idx) :
    i ∈ ((cfg1.win 3).blk t).view.set ↔ ∀ a : Fin 2, win1_3.index t a * S1x1.size a ≤ (i a).val ∧ (i a).val < win1_3.index t a * S1x1.size a + S1x1.size a := by
  show i ∈ ((View.whole main_v26_2).slice (win1_3.rect t)).set ↔ _
  rw [View.set_slice_whole, Rect.mem_set_unit]
  exact Iff.rfl

theorem r1_cover3 (i : S1x1.Idx) : ∃ t : Fin cfg1.N, (cfg1.win 3).flush t = true ∧ i ∈ ((cfg1.win 3).blk t).view.set := by
  have h0 : (i 0).val < 1 := (i 0).isLt
  have h1 : (i 1).val < 1 := (i 1).isLt
  obtain ⟨e0, e1⟩ := (by decide +kernel : ∀ t : Fin grid1.N, win1_3.index t 0 = 0 ∧ win1_3.index t 1 = 0) t1_0
  refine ⟨t1_0, flush1_3 t1_0, ?_⟩
  rw [r1_mem3]
  intro a
  match a with
  | ⟨0, _⟩ => show win1_3.index t1_0 0 * 1 ≤ (i 0).val ∧ (i 0).val < win1_3.index t1_0 0 * 1 + 1
              rw [e0]; omega
  | ⟨1, _⟩ => show win1_3.index t1_0 1 * 1 ≤ (i 1).val ∧ (i 1).val < win1_3.index t1_0 1 * 1 + 1
              rw [e1]; omega

theorem r1_final3 : (dat1 V c).arrAt 3 cfg1.N = fun _ => Cert.Loss.l2S (V c main_arg2) :=
  (dat1 V c).arrAt_eq_of_cover 3 (fun _ => Cert.Loss.l2S (V c main_arg2)) (r1_flushed3 V c) (r1_cover3)

end Cert.KernelIdeal.Ortho

end
-- ==== Proof.KernelWeights.lean ====
/-
  The second kernel's three results in terms of the launch memory, at the ideal instance: the weight matrix reaches
  the second kernel as launched (no host operation between the two kernels and no window of the first kernel writes
  it), so after the second kernel its three [1, 1] result arrays hold the squared Frobenius distance of W W^T from the
  identity, the sum of |W| and the sum of squares of W, W the weight matrix at launch.
-/
import proofs.«135353_j33835752358351_2_alg».proof.Proof.Gen.KernelIdeal.Frame
import proofs.«135353_j33835752358351_2_alg».proof.Proof.Region1
import proofs.«135353_j33835752358351_2_alg».proof.Proof.Spec

set_option maxRecDepth 16384

noncomputable section

namespace Cert.KernelIdeal.Res

open Cert.KernelIdeal Cert.KernelIdeal.Gen
open Idealize.ShloMosaic Idealize.ShloMosaic.TcCoe Idealize.SL.Sem Idealize.ShloMosaic.ValueIdx

variable [Cert.KernelIdeal.Facts]
open Facts₀ Facts

variable (m : (ℓ : Loc nD τ sig) → Buf (Elt Ideal) ℓ) (ρ : Dev nD → PrngReg) (c : Dev nD)

/-- None of the three host stretches between the two kernels writes the weight matrix. -/
theorem keep12_arg2 : W4 m ρ c (Proc.devRef .tc main_arg2) = W3 m ρ c (Proc.devRef .tc main_arg2) :=
  StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep11_arg2 : W3 m ρ c (Proc.devRef .tc main_arg2) = W2 m ρ c (Proc.devRef .tc main_arg2) :=
  StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem keep1_arg2 : W2 m ρ c (Proc.devRef .tc main_arg2) = W1 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The weight matrix as the second kernel finds it is the weight matrix at launch. -/
theorem V4_arg2 : (V4 m ρ c main_arg2 : S1000x1280.Idx → EReal) = m ((c.tc : Thread nD τ).loc main_arg2) :=
  (keep12_arg2 m ρ c).trans ((keep11_arg2 m ρ c).trans ((keep1_arg2 m ρ c).trans (W1_of_ne m ρ c main_arg2 (by decide))))

/-- The first result array after the second kernel: the squared Frobenius distance of W W^T from the identity. -/
theorem w_ortho (y : S1x1.Idx) :
    (W5 m ρ c (Proc.devRef .tc main_v26_0) : S1x1.Idx → EReal) y = Cert.Loss.orthoS (m ((c.tc : Thread nD τ).loc main_arg2)) :=
  (congrFun (W5_arr m ρ c 1) y).trans ((congrFun (Cert.KernelIdeal.Ortho.r1_final1 (V4 m ρ) c) y).trans
    (congrArg Cert.Loss.orthoS (V4_arg2 m ρ c)))

/-- The second: the sum of |W|. -/
theorem w_l1 (y : S1x1.Idx) :
    (W5 m ρ c (Proc.devRef .tc main_v26_1) : S1x1.Idx → EReal) y = Cert.Loss.l1S (m ((c.tc : Thread nD τ).loc main_arg2)) :=
  (congrFun (W5_arr m ρ c 2) y).trans ((congrFun (Cert.KernelIdeal.Ortho.r1_final2 (V4 m ρ) c) y).trans
    (congrArg Cert.Loss.l1S (V4_arg2 m ρ c)))

/-- The third: the sum of squares of W. -/
theorem w_l2 (y : S1x1.Idx) :
    (W5 m ρ c (Proc.devRef .tc main_v26_2) : S1x1.Idx → EReal) y = Cert.Loss.l2S (m ((c.tc : Thread nD τ).loc main_arg2)) :=
  (congrFun (W5_arr m ρ c 3) y).trans ((congrFun (Cert.KernelIdeal.Ortho.r1_final3 (V4 m ρ) c) y).trans
    (congrArg Cert.Loss.l2S (V4_arg2 m ρ c)))

end Cert.KernelIdeal.Res

end
-- ==== Proof.NllChain.lean ====
/-
  The kernel program's negative mean of the gathered log-probabilities is the reference's.

  Both programs broadcast the label vector to a column, wrap negative labels by 1000, gather the logit at that
  position in each row (the junk word where the position is outside [0, 999]), add the rows from the zero word, divide
  by the word of 16384 and negate. The two terms are the same composition of the same operations on the same two
  arrays, so they are equal by unfolding.
-/
import proofs.«135353_j33835752358351_2_alg».proof.Proof.HostMid
import proofs.«135353_j33835752358351_2_alg».proof.Proof.HostChain
import proofs.«135353_j33835752358351_2_alg».proof.Proof.RefReadP

set_option maxHeartbeats 8000000
set_option maxRecDepth 100000

noncomputable section

namespace Cert.KernelIdeal.Mid

open Cert.KernelIdeal Cert.KernelIdeal.Gen Cert.Loss Idealize.ShloMosaic Idealize.ShloMosaic.StableHlo Idealize.ShloMosaic.ValueIdx

variable [Cert.KernelIdeal.Facts] [Cert.ReferenceIdeal.Facts]

/-- The kernel's term and the reference's are the same operations on the same two arrays; only the records of the
    gather's dimensions and of the shape relations live in two namespaces, with the same data. -/
theorem nllK_same (x0 : FVec Ideal S16384x1000 .f32) (x1 : IVec S16384 32) :
    nllK x0 (broadcastInDim S16384x1 ![0] bcast_S16384_S16384x1_0 x1) = Cert.ReferenceIdeal.Read.val_main_v4 (F := Ideal) x0 x1 := by
  rfl

/-- The negative mean of the gathered log-probabilities after the three stretches is the reference's. -/
theorem nll_same (W : Valuation τ sig (Elt Ideal)) (i : S_.Idx) :
    StableHlo.after (hostOps1_2 (F := Ideal)) (StableHlo.after (hostOps1_1 (F := Ideal))
        (StableHlo.after (hostOps1 (F := Ideal)) W)) (Proc.devRef .tc main_v25) i
      = Cert.ReferenceIdeal.Read.val_main_v4 (F := Ideal) (W (Proc.devRef .tc main_arg0)) (W (Proc.devRef .tc main_arg1)) i := by
  rw [nll_term, mid_arg0, mid_v21, nllK_same]

end Cert.KernelIdeal.Mid

end
-- ==== Proof.KernelValue.lean ====
/-
  The idealized kernel program's result as a function of its four argument arrays: the last stretch of host operations
  forms the weighted sum of six buffers, and each is followed back through the fold of @main's segments — the
  negative mean of the gathered log-probabilities (the same host operations as the reference's, on the same arrays),
  the KL statistic and the covariance loss in the kernel's arrangement, and the second kernel's three sums over the
  weight matrix.
-/
import proofs.«135353_j33835752358351_2_alg».proof.Proof.KernelRun
import proofs.«135353_j33835752358351_2_alg».proof.Proof.KernelFeat
import proofs.«135353_j33835752358351_2_alg».proof.Proof.KernelWeights
import proofs.«135353_j33835752358351_2_alg».proof.Proof.NllChain
import proofs.«135353_j33835752358351_2_alg».proof.Proof.RefReadP
import proofs.«135353_j33835752358351_2_alg».proof.Proof.Spec

set_option maxRecDepth 16384

noncomputable section

namespace Cert.KernelIdeal.Res

open Cert.KernelIdeal Cert.KernelIdeal.Gen Cert.Loss
open Idealize.ShloMosaic Idealize.ShloMosaic.TcCoe Idealize.SL.Sem Idealize.ShloMosaic.ValueIdx

variable [Cert.KernelIdeal.Facts] [Cert.ReferenceIdeal.Facts]
open Facts₀ Facts

variable (m : (ℓ : Loc nD τ sig) → Buf (Elt Ideal) ℓ) (ρ : Dev nD → PrngReg) (c : Dev nD)

/-- The log-probability buffer at the second kernel's exit: the reference's own stage of the launched arrays. -/
theorem v25_eq (i : S_.Idx) : (W5 m ρ c (Proc.devRef .tc main_v25) : S_.Idx → EReal) i
    = Cert.ReferenceIdeal.Read.val_main_v4 (F := Ideal) (m ((c.tc : Thread nD τ).loc main_arg0)) (m ((c.tc : Thread nD τ).loc main_arg1)) i := by
  have e1 : W5 m ρ c (Proc.devRef .tc main_v25) = W4 m ρ c (Proc.devRef .tc main_v25) := W5_of_ne m ρ c main_v25 (by decide)
  have e2 := Mid.nll_same (W1 m ρ c) i
  have a0 : W1 m ρ c (Proc.devRef .tc main_arg0) = m ((c.tc : Thread nD τ).loc main_arg0) :=
    (W1_of_ne m ρ c main_arg0 (by decide)).trans rfl
  have a1 : W1 m ρ c (Proc.devRef .tc main_arg1) = m ((c.tc : Thread nD τ).loc main_arg1) :=
    (W1_of_ne m ρ c main_arg1 (by decide)).trans rfl
  rw [a0, a1] at e2
  exact (congrFun e1 i).trans e2

/-- The result buffer after the run. -/
theorem result_eq (i : S_.Idx) : (W6 m ρ c (Proc.devRef .tc main_v41) : S_.Idx → EReal) i
    = combine (Cert.ReferenceIdeal.Read.val_main_v4 (F := Ideal) (m ((c.tc : Thread nD τ).loc main_arg0)) (m ((c.tc : Thread nD τ).loc main_arg1)) ix0)
        (klK (m ((c.tc : Thread nD τ).loc main_arg3))) (covLoss (covK (m ((c.tc : Thread nD τ).loc main_arg3))))
        (orthoS (m ((c.tc : Thread nD τ).loc main_arg2))) (l1S (m ((c.tc : Thread nD τ).loc main_arg2)))
        (l2S (m ((c.tc : Thread nD τ).loc main_arg2))) := by
  obtain rfl : i = ix0 := eq_ix0 i
  refine (Mid.tail_v41 (W5 m ρ c) ix0).trans ?_
  rw [v25_eq m ρ c ix0, v20_eq m ρ c ix0, v19_eq m ρ c ix0, w_ortho m ρ c, w_l1 m ρ c, w_l2 m ρ c]

end Cert.KernelIdeal.Res

end
-- ==== Proof.lean ====
/-
  The two programs compute one loss of four arrays: log-probabilities [16384, 1000], integer targets [16384], a weight
  matrix W [1000, 1280] and a feature matrix F [16384, 1280]. The loss is the weighted sum (Proof/Spec.lean `combine`,
  the weights the f32 words of 1.0, 0.2, 0.2, 0.1, 0.1, 0.1, kept as words) of six numbers:
    * the negative mean of the log-probabilities gathered at the targets;
    * the KL statistic of the row-wise log-softmax L of F;
    * the squared Frobenius distance from the identity of the covariance matrix of F's columns;
    * the squared Frobenius distance from the identity of W W^T, the sum of |W|, and the square root of the sum of
      the squares of W.

  The kernel program accumulates F^T F, the column sums of F and the sum of  L * (1280 * exp L - 1)  tile by tile over
  blocks of rows, and finishes on the host: the covariance entry is  gram / 16384 - mean * mean,  the KL statistic the
  accumulated sum over 16384. The reference centres the columns first, multiplies the centred matrix with its
  transpose and divides by 16384, and forms the KL statistic as  (1280 * sum exp L * L - sum L) / 16384  from a
  log-softmax spelt  (x - max) - log sumexp  where the kernel spells  x - (log sumexp + max).  A second
  kernel computes the three statistics of W in one step; they and the gathered mean are the same sums in both programs.

  At the ideal instance a float is an extended real and every operation is exact, so each program's result is a plain
  sum over coordinates of the argument arrays: the reference's is `combine` of `klR` and `covR` (Proof/RefValue.lean), the
  kernel's `combine` of `klK` and `covK` (Proof/KernelValue.lean). Under the precondition every feature is a real number
  (Proof/Finite.lean), and on reals the two arrangements agree by two identities of finite sums (Proof/Algebra.lean):
  termwise  l * (c * e - 1) = c * (e * l) - l,  and  Q/N - (Sx/N)(Sy/N) = (sum (x - Sx/N)(y - Sy/N)) / N.

  The frame claims are the two kernel programs' generated frame certificates and the reference's run; the idealization
  rewrote nothing, so `preserves` is trivial.
-/
import proofs.«135353_j33835752358351_2_alg».proof.Defs
import proofs.«135353_j33835752358351_2_alg».proof.Proof.Gen.Kernel
import proofs.«135353_j33835752358351_2_alg».proof.Proof.Gen.Kernel.Skeleton
import proofs.«135353_j33835752358351_2_alg».proof.Proof.Gen.Kernel.Launch
import proofs.«135353_j33835752358351_2_alg».proof.Proof.Gen.Kernel.Points
import proofs.«135353_j33835752358351_2_alg».proof.Proof.Gen.Kernel.Frame
import proofs.«135353_j33835752358351_2_alg».proof.Proof.Gen.KernelIdeal
import proofs.«135353_j33835752358351_2_alg».proof.Proof.Gen.KernelIdeal.Skeleton
import proofs.«135353_j33835752358351_2_alg».proof.Proof.Gen.KernelIdeal.Launch
import proofs.«135353_j33835752358351_2_alg».proof.Proof.Gen.KernelIdeal.Points
import proofs.«135353_j33835752358351_2_alg».proof.Proof.Gen.KernelIdeal.Frame
import proofs.«135353_j33835752358351_2_alg».proof.Proof.Gen.ReferenceIdeal
import proofs.«135353_j33835752358351_2_alg».proof.Proof.Gen.Pre_finite_inputs
import proofs.«135353_j33835752358351_2_alg».proof.Proof.RefRunP
import proofs.«135353_j33835752358351_2_alg».proof.Proof.RefReadP
import proofs.«135353_j33835752358351_2_alg».proof.Proof.RefValue
import proofs.«135353_j33835752358351_2_alg».proof.Proof.Algebra
import proofs.«135353_j33835752358351_2_alg».proof.Proof.Finite
import proofs.«135353_j33835752358351_2_alg».proof.Proof.KernelRun
import proofs.«135353_j33835752358351_2_alg».proof.Proof.KernelValue
import Idealize.ShloMosaic.Adequacy
import Idealize.ShloMosaic.Init

noncomputable section

namespace Cert.Proof

open Idealize.ShloMosaic Idealize.SL.Sem Cert.Kernel

/-- The kernel program runs and leaves its arguments as launched. -/
theorem frame_Kernel : Cert.frame_Kernel := fun m ρ _ => Cert.Kernel.Gen.frame m ρ

/-- So does its idealization. -/
theorem frame_KernelIdeal : Cert.frame_KernelIdeal := fun m ρ _ => Cert.KernelIdeal.Gen.frame m ρ

/-- So does the reference. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories that agree on the four arguments of which the features are finite, both
    programs run, leave the arguments as launched and end with the same loss: each result is the weighted sum of its
    six numbers, and the KL statistic and the covariance matrix of real features are the same in the two
    arrangements. -/
theorem algebraic : Cert.algebraic_KernelIdeal_ReferenceIdeal := by
  intro m ρ m' ρ' hpre hagree
  refine ⟨fun c => Cert.KernelIdeal.Gen.W6 m ρ c (Proc.devRef .tc Cert.KernelIdeal.main_v41),
    Cert.KernelIdeal.Res.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq m' c, (hagree c).1, (hagree c).2.1, (hagree c).2.2.1, (hagree c).2.2.2]
  have hA : Cert.Loss.AllReal (S := Cert.Loss.SF) (m ((c.tc : Thread _ Cert.KernelIdeal.τ).loc Cert.KernelIdeal.main_arg3)) :=
    Cert.Loss.allReal_of_pre _ _ _ _ (hpre c)
  have hcov : Cert.Loss.covK (m ((c.tc : Thread _ Cert.KernelIdeal.τ).loc Cert.KernelIdeal.main_arg3))
      = Cert.Loss.covR (m ((c.tc : Thread _ Cert.KernelIdeal.τ).loc Cert.KernelIdeal.main_arg3)) :=
    funext fun p => funext fun q => Cert.Loss.covK_eq_covR _ hA p q
  funext i
  refine (Cert.Loss.Ref.ref_result _ _ _ _ i).trans ?_
  refine Eq.trans ?_ (Cert.KernelIdeal.Res.result_eq m ρ c i).symm
  rw [Cert.Loss.klK_eq_klR _ hA, hcov]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
